-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x256 : Shape := ⟨2, ![128, 256]⟩
abbrev S256x512 : Shape := ⟨2, ![256, 512]⟩
abbrev S512x512 : Shape := ⟨2, ![512, 512]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x256 : S_.BroadcastsInDim S128x256 (![] : Fin 0 → Fin S128x256.rank)
  reducesTo_S128x256_S_d0_1 : S128x256.ReducesTo [0, 1] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S4096x128 .f32) (main_arg1 : FVec F S4096x4096 .f32) (main_arg2 : FVec F S128x256 .f32) (main_arg3 : FVec F S256x512 .f32) (main_arg4 : FVec F S512x512 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S4096x128 : Shape := ⟨2, ![4096, 128]⟩
abbrev S4096x4096 : Shape := ⟨2, ![4096, 4096]⟩
abbrev S128x256 : Shape := ⟨2, ![128, 256]⟩
abbrev S256x512 : Shape := ⟨2, ![256, 512]⟩
abbrev S512x512 : Shape := ⟨2, ![512, 512]⟩
abbrev S4096x256 : Shape := ⟨2, ![4096, 256]⟩
abbrev S1024x128 : Shape := ⟨2, ![1024, 128]⟩
abbrev S1024x256 : Shape := ⟨2, ![1024, 256]⟩
abbrev S4096x512 : Shape := ⟨2, ![4096, 512]⟩
abbrev S512x4096 : Shape := ⟨2, ![512, 4096]⟩
abbrev S512x256 : Shape := ⟨2, ![512, 256]⟩
abbrev S1024x512 : Shape := ⟨2, ![1024, 512]⟩
abbrev S1024x1024 : Shape := ⟨2, ![1024, 1024]⟩

abbrev nBuf : Space → Nat
  | .hbm => 12
  | .vmem => 32
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x256, .f32⟩
  | .hbm, ⟨3, _⟩ => ⟨S256x512, .f32⟩
  | .hbm, ⟨4, _⟩ => ⟨S512x512, .f32⟩
  | .hbm, ⟨5, _⟩ => ⟨S4096x256, .bf16⟩
  | .hbm, ⟨6, _⟩ => ⟨S4096x512, .bf16⟩
  | .hbm, ⟨7, _⟩ => ⟨S4096x4096, .bf16⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x4096, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S1024x256, .bf16⟩
  | .local _ .vmem, ⟨4, _⟩ => ⟨S1024x256, .bf16⟩
  | .local _ .vmem, ⟨5, _⟩ => ⟨S512x4096, .f32⟩
  | .local _ .vmem, ⟨6, _⟩ => ⟨S512x4096, .f32⟩
  | .local _ .vmem, ⟨7, _⟩ => ⟨S4096x256, .bf16⟩
  | .local _ .vmem, ⟨8, _⟩ => ⟨S256x512, .f32⟩
  | .local _ .vmem, ⟨9, _⟩ => ⟨S512x512, .bf16⟩
  | .local _ .vmem, ⟨10, _⟩ => ⟨S512x512, .bf16⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | .local _ .vmem, ⟨15, _⟩ => ⟨S4096x512, .bf16⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x4096, .bf16⟩
  | .local _ .vmem, ⟨20, _⟩ => ⟨S512x4096, .bf16⟩
  | .local _ .vmem, ⟨21, _⟩ => ⟨S4096x512, .bf16⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x1024, .f32⟩
  | .local _ .vmem, ⟨31, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  dot_S1024x128_S128x256_S1024x256_1_0_0_1_n_n_wf : DotDims.WF S1024x128 S128x256 S1024x256 [1] [0] [0] [1] [] []
  dot_S512x4096_S4096x256_S512x256_1_0_0_1_n_n_wf : DotDims.WF S512x4096 S4096x256 S512x256 [1] [0] [0] [1] [] []
  dot_S512x256_S256x512_S512x512_1_0_0_1_n_n_wf : DotDims.WF S512x256 S256x512 S512x512 [1] [0] [0] [1] [] []
  dot_S512x4096_S4096x512_S512x512_1_0_0_1_n_n_wf : DotDims.WF S512x4096 S4096x512 S512x512 [1] [0] [0] [1] [] []
  dot_S512x512_S512x512_S512x512_1_0_0_1_n_n_wf : DotDims.WF S512x512 S512x512 S512x512 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x512.size a
  hwx1_3 : ∀ i : grid1.Coords, EltTy.bits .bf16 = 32 ∨ (Rect.block (s := S4096x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S4096x4096.size a
  hwx1_4 : ∀ i : grid1.Coords, EltTy.bits .bf16 = 32 ∨ (Rect.block (s := S4096x4096) S512x4096.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x512.size a ≤ S4096x512.size a
  hwx2_1 : ∀ i : grid2.Coords, EltTy.bits .bf16 = 32 ∨ (Rect.block (s := S4096x512) S4096x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x512.size a
  hwx2_3 : ∀ i : grid2.Coords, EltTy.bits .bf16 = 32 ∨ (Rect.block (s := S4096x512) S512x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .bf16 = 32 ∨ (Rect.block (s := S4096x4096) S512x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x512.size a ≤ S4096x512.size a
  hwx3_1 : ∀ i : grid3.Coords, EltTy.bits .bf16 = 32 ∨ (Rect.block (s := S4096x512) S4096x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S4096x512.size a
  hwx3_2 : ∀ i : grid3.Coords, EltTy.bits .f32 = 32 ∨ (Rect.block (s := S4096x512) S512x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S4096x512.size a
  hwx3_3 : ∀ i : grid3.Coords, EltTy.bits .bf16 = 32 ∨ (Rect.block (s := S4096x512) S512x512.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S4096x512.size a
  hwx4_0 : ∀ i : grid4.Coords, EltTy.bits .bf16 = 32 ∨ (Rect.block (s := S4096x512) S1024x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S4096x512.size a
  hwx4_1 : ∀ i : grid4.Coords, EltTy.bits .bf16 = 32 ∨ (Rect.block (s := S4096x512) S1024x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x4096.size a
  hwx4_2 : ∀ i : grid4.Coords, EltTy.bits .f32 = 32 ∨ (Rect.block (s := S4096x4096) S1024x1024.size (cc4_transform_2 i) (hinb4_2 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S512x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S4096x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1_1) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S4096x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3_0) S512x512.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3_1) S512x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v3_1) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3_1) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x256 : Shape := ⟨2, ![128, 256]⟩
abbrev S256x512 : Shape := ⟨2, ![256, 512]⟩
abbrev S512x512 : Shape := ⟨2, ![512, 512]⟩
abbrev S4096x256 : Shape := ⟨2, ![4096, 256]⟩
abbrev S4096x512 : Shape := ⟨2, ![4096, 512]⟩
abbrev S512x4096 : Shape := ⟨2, ![512, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x256, .f32⟩
  | .hbm, ⟨3, _⟩ => ⟨S256x512, .f32⟩
  | .hbm, ⟨4, _⟩ => ⟨S512x512, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S512x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S_S4096x4096 : S_.BroadcastsInDim S4096x4096 (![] : Fin 0 → Fin S4096x4096.rank)
  dot_S4096x128_S128x256_S4096x256_1_0_0_1_n_n_wf : DotDims.WF S4096x128 S128x256 S4096x256 [1] [0] [0] [1] [] []
  dot_S4096x4096_S4096x256_S4096x256_1_0_0_1_n_n_wf : DotDims.WF S4096x4096 S4096x256 S4096x256 [1] [0] [0] [1] [] []
  dot_S4096x256_S256x512_S4096x512_1_0_0_1_n_n_wf : DotDims.WF S4096x256 S256x512 S4096x512 [1] [0] [0] [1] [] []
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []
  dot_S4096x512_S512x4096_S4096x4096_1_0_0_1_n_n_wf : DotDims.WF S4096x512 S512x4096 S4096x4096 [1] [0] [0] [1] [] []

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KFrameReg0.lean ====
/-
  The first region of the kernel's program, run at one grid point: what the body finds in its windows' staging
  buffers and what it leaves there.
-/
import proofs.«108085_g73684458930218_cont_9to1c4b_137_7_alg».proof.Proof.Gen.Kernel.Launch
import proofs.«108085_g73684458930218_cont_9to1c4b_137_7_alg».proof.Proof.Gen.Kernel.Skeleton
import proofs.«108085_g73684458930218_cont_9to1c4b_137_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 0: one row panel of tanh (Z · W4) per grid point

Window 0 is the 1024-row panel of Z at the point, window 1 the whole of W4 (the same block at every point),
window 2 the panel of the result the body stores whole. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there: when it
    was not, the block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each a whole staging buffer. -/
abbrev r0_0 : Rect S1024x128 := Rect.unit (s := S1024x128) ![0, 0] S1024x128.size inb_S1024x128_S1024x128_0_0
abbrev r0_1 : Rect S128x256 := Rect.unit (s := S128x256) ![0, 0] S128x256.size inb_S128x256_S128x256_0_0
abbrev r0_2 : Rect S1024x256 := Rect.unit (s := S1024x256) ![0, 0] S1024x256.size inb_S1024x256_S1024x256_0_0

/-- What the body leaves in window 2's staging buffer, from the input blocks: its one store. -/
def out0_2 (x0 : Vec F S1024x128 .f32) (x1 : Vec F S128x256 .f32) : Vec F S1024x256 .bf16 :=
  View.canon [⟨r0_2, k0_pay1 (View.ld x0 r0_0) (View.ld x1 r0_1)⟩]

/-- The store covers the buffer. -/
theorem cover0_2 (p0 : Vec F S1024x256 .bf16) (y : S1024x256.Idx) :
    ∃ pc ∈ ([⟨r0_2, p0⟩] : List (View.Piece (Elt F) S1024x256 .bf16)), y ∈ pc.1.set :=
  View.cover_of_tiled [⟨r0_2, p0⟩] S1024x256.size (by rfl) y

set_option maxHeartbeats 1000000 in
/-- The body on whole staging memrefs: the inputs keep their contents, each result's buffer ends at its `out0_W` of them. -/
theorem sound_kernel0 (c : Dev nD) (E : Set ℕ) (i : grid0.Coords)
    (a0 : Memref sig .tc .vmem S1024x128 .f32) (ha0 : a0.IsWhole) (a1 : Memref sig .tc .vmem S128x256 .f32) (ha1 : a1.IsWhole) (a2 : Memref sig .tc .vmem S1024x256 .bf16) (ha2 : a2.IsWhole)
    (x0 : Vec F S1024x128 .f32) (x1 : Vec F S128x256 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__l1_kernel i a0 ha0 a1 ha1 a2 ha2) K := by
  simp only [cc0__l1_kernel_eq_skeleton]; unfold cc0__l1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body each input's buffer at
    its block and each result's at its `out0_W` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KFrameReg1.lean ====
/-
  The second region of the kernel's program, run at one grid point: what the body finds in its windows' staging
  buffers and what it leaves there.
-/
import proofs.«108085_g73684458930218_cont_9to1c4b_137_7_alg».proof.Proof.Gen.Kernel.Launch
import proofs.«108085_g73684458930218_cont_9to1c4b_137_7_alg».proof.Proof.Gen.Kernel.Skeleton
import proofs.«108085_g73684458930218_cont_9to1c4b_137_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 1: one row panel of tanh ((A · S1) · W5) per grid point, and the same panel of A copied

Window 0 is the 512-row panel of A at the point, window 1 the whole of S1, window 2 the whole of W5 (each the same
block at every point), window 3 the panel of the result, window 4 the panel of the copy of A; the body stores both whole. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there: when it
    was not, the block index did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each a whole staging buffer. -/
abbrev r1_0 : Rect S512x4096 := Rect.unit (s := S512x4096) ![0, 0] S512x4096.size inb_S512x4096_S512x4096_0_0
abbrev r1_1 : Rect S4096x256 := Rect.unit (s := S4096x256) ![0, 0] S4096x256.size inb_S4096x256_S4096x256_0_0
abbrev r1_2 : Rect S256x512 := Rect.unit (s := S256x512) ![0, 0] S256x512.size inb_S256x512_S256x512_0_0
abbrev r1_3 : Rect S512x512 := Rect.unit (s := S512x512) ![0, 0] S512x512.size inb_S512x512_S512x512_0_0
abbrev r1_4 : Rect S512x4096 := Rect.unit (s := S512x4096) ![0, 0] S512x4096.size inb_S512x4096_S512x4096_0_0

/-- What the body leaves in window 3's staging buffer, from the input blocks: its one store. -/
def out1_3 (x0 : Vec F S512x4096 .f32) (x1 : Vec F S4096x256 .bf16) (x2 : Vec F S256x512 .f32) : Vec F S512x512 .bf16 :=
  View.canon [⟨r1_3, k1_pay2 (View.ld x0 r1_0) (View.ld x1 r1_1) (View.ld x2 r1_2)⟩]

/-- The store covers the buffer. -/
theorem cover1_3 (p0 : Vec F S512x512 .bf16) (y : S512x512.Idx) :
    ∃ pc ∈ ([⟨r1_3, p0⟩] : List (View.Piece (Elt F) S512x512 .bf16)), y ∈ pc.1.set :=
  View.cover_of_tiled [⟨r1_3, p0⟩] S512x512.size (by rfl) y

/-- What the body leaves in window 4's staging buffer, from the input blocks: its one store. -/
def out1_4 (x0 : Vec F S512x4096 .f32) (x1 : Vec F S4096x256 .bf16) (x2 : Vec F S256x512 .f32) : Vec F S512x4096 .bf16 :=
  View.canon [⟨r1_4, k1_pay1 (View.ld x0 r1_0)⟩]

/-- The store covers the buffer. -/
theorem cover1_4 (p0 : Vec F S512x4096 .bf16) (y : S512x4096.Idx) :
    ∃ pc ∈ ([⟨r1_4, p0⟩] : List (View.Piece (Elt F) S512x4096 .bf16)), y ∈ pc.1.set :=
  View.cover_of_tiled [⟨r1_4, p0⟩] S512x4096.size (by rfl) y

set_option maxHeartbeats 1000000 in
/-- The body on whole staging memrefs: the inputs keep their contents, each result's buffer ends at its `out1_W` of them. -/
theorem sound_kernel1 (c : Dev nD) (E : Set ℕ) (i : grid1.Coords)
    (a0 : Memref sig .tc .vmem S512x4096 .f32) (ha0 : a0.IsWhole) (a1 : Memref sig .tc .vmem S4096x256 .bf16) (ha1 : a1.IsWhole) (a2 : Memref sig .tc .vmem S256x512 .f32) (ha2 : a2.IsWhole) (a3 : Memref sig .tc .vmem S512x512 .bf16) (ha3 : a3.IsWhole) (a4 : Memref sig .tc .vmem S512x4096 .bf16) (ha4 : a4.IsWhole)
    (x0 : Vec F S512x4096 .f32) (x1 : Vec F S4096x256 .bf16) (x2 : Vec F S256x512 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2) ∗ owns (c : Thread nD τ) a4 fullShare (out1_4 x0 x1 x2)) -∗ K ⟨⟩))
      ⊢ wp frame (wpE (defs₀ (F := F)) Variants.none c none) E (cc1__l2_kernel i a0 ha0 a1 ha1 a2 ha2 a3 ha3 a4 ha4) K := by
  simp only [cc1__l2_kernel_eq_skeleton]; unfold cc1__l2_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The region's proof data on core `c`: the arrays as the region finds them; after the body each input's buffer at
    its block and each result's at its `out1_W` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KFrameReg2.lean ====
/-
  The third region of the kernel's program, run at one grid point: what the body finds in its windows' staging
  buffers and what it leaves there.
-/
import proofs.«108085_g73684458930218_cont_9to1c4b_137_7_alg».proof.Proof.Gen.Kernel.Launch
import proofs.«108085_g73684458930218_cont_9to1c4b_137_7_alg».proof.Proof.Gen.Kernel.Skeleton
import proofs.«108085_g73684458930218_cont_9to1c4b_137_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 2: one row panel of (A · S2) · W6 per grid point

Window 0 is the 512-row panel of the copy of A at the point, window 1 the whole of S2, window 2 the whole of W6 (each
the same block at every point), window 3 the panel of the result the body stores whole. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not it was fetched there: when it
    was not, the block index did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each a whole staging buffer. -/
abbrev r2_0 : Rect S512x4096 := Rect.unit (s := S512x4096) ![0, 0] S512x4096.size inb_S512x4096_S512x4096_0_0
abbrev r2_1 : Rect S4096x512 := Rect.unit (s := S4096x512) ![0, 0] S4096x512.size inb_S4096x512_S4096x512_0_0
abbrev r2_2 : Rect S512x512 := Rect.unit (s := S512x512) ![0, 0] S512x512.size inb_S512x512_S512x512_0_0
abbrev r2_3 : Rect S512x512 := Rect.unit (s := S512x512) ![0, 0] S512x512.size inb_S512x512_S512x512_0_0

/-- What the body leaves in window 3's staging buffer, from the input blocks: its one store. -/
def out2_3 (x0 : Vec F S512x4096 .bf16) (x1 : Vec F S4096x512 .bf16) (x2 : Vec F S512x512 .f32) : Vec F S512x512 .bf16 :=
  View.canon [⟨r2_3, k2_pay1 (View.ld x0 r2_0) (View.ld x1 r2_1) (View.ld x2 r2_2)⟩]

/-- The store covers the buffer. -/
theorem cover2_3 (p0 : Vec F S512x512 .bf16) (y : S512x512.Idx) :
    ∃ pc ∈ ([⟨r2_3, p0⟩] : List (View.Piece (Elt F) S512x512 .bf16)), y ∈ pc.1.set :=
  View.cover_of_tiled [⟨r2_3, p0⟩] S512x512.size (by rfl) y

set_option maxHeartbeats 1000000 in
/-- The body on whole staging memrefs: the inputs keep their contents, each result's buffer ends at its `out2_W` of them. -/
theorem sound_kernel2 (c : Dev nD) (E : Set ℕ) (i : grid2.Coords)
    (a0 : Memref sig .tc .vmem S512x4096 .bf16) (ha0 : a0.IsWhole) (a1 : Memref sig .tc .vmem S4096x512 .bf16) (ha1 : a1.IsWhole) (a2 : Memref sig .tc .vmem S512x512 .f32) (ha2 : a2.IsWhole) (a3 : Memref sig .tc .vmem S512x512 .bf16) (ha3 : a3.IsWhole)
    (x0 : Vec F S512x4096 .bf16) (x1 : Vec F S4096x512 .bf16) (x2 : Vec F S512x512 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__l3_kernel i a0 ha0 a1 ha1 a2 ha2 a3 ha3) K := by
  simp only [cc2__l3_kernel_eq_skeleton]; unfold cc2__l3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body each input's buffer at
    its block and each result's at its `out2_W` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KFrameReg3.lean ====
/-
  The fourth region of the kernel's program, run at one grid point: what the body finds in its windows' staging
  buffers and what it leaves there.
-/
import proofs.«108085_g73684458930218_cont_9to1c4b_137_7_alg».proof.Proof.Gen.Kernel.Launch
import proofs.«108085_g73684458930218_cont_9to1c4b_137_7_alg».proof.Proof.Gen.Kernel.Skeleton
import proofs.«108085_g73684458930218_cont_9to1c4b_137_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 3: one row panel of A · S3 per grid point, stored twice

Window 0 is the 512-row panel of the copy of A at the point, window 1 the whole of S3 (the same block at every point),
windows 2 and 3 the panel of the product, which the body stores whole into each. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether or not it was fetched there: when it
    was not, the block index did not move. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The body's accesses: each a whole staging buffer. -/
abbrev r3_0 : Rect S512x4096 := Rect.unit (s := S512x4096) ![0, 0] S512x4096.size inb_S512x4096_S512x4096_0_0
abbrev r3_1 : Rect S4096x512 := Rect.unit (s := S4096x512) ![0, 0] S4096x512.size inb_S4096x512_S4096x512_0_0
abbrev r3_2 : Rect S512x512 := Rect.unit (s := S512x512) ![0, 0] S512x512.size inb_S512x512_S512x512_0_0
abbrev r3_3 : Rect S512x512 := Rect.unit (s := S512x512) ![0, 0] S512x512.size inb_S512x512_S512x512_0_0

/-- What the body leaves in window 2's staging buffer, from the input blocks: its one store. -/
def out3_2 (x0 : Vec F S512x4096 .bf16) (x1 : Vec F S4096x512 .bf16) : Vec F S512x512 .f32 :=
  View.canon [⟨r3_2, k3_pay1 (View.ld x0 r3_0) (View.ld x1 r3_1)⟩]

/-- The store covers the buffer. -/
theorem cover3_2 (p0 : Vec F S512x512 .f32) (y : S512x512.Idx) :
    ∃ pc ∈ ([⟨r3_2, p0⟩] : List (View.Piece (Elt F) S512x512 .f32)), y ∈ pc.1.set :=
  View.cover_of_tiled [⟨r3_2, p0⟩] S512x512.size (by rfl) y

/-- What the body leaves in window 3's staging buffer, from the input blocks: its one store. -/
def out3_3 (x0 : Vec F S512x4096 .bf16) (x1 : Vec F S4096x512 .bf16) : Vec F S512x512 .bf16 :=
  View.canon [⟨r3_3, k3_pay2 (View.ld x0 r3_0) (View.ld x1 r3_1)⟩]

/-- The store covers the buffer. -/
theorem cover3_3 (p0 : Vec F S512x512 .bf16) (y : S512x512.Idx) :
    ∃ pc ∈ ([⟨r3_3, p0⟩] : List (View.Piece (Elt F) S512x512 .bf16)), y ∈ pc.1.set :=
  View.cover_of_tiled [⟨r3_3, p0⟩] S512x512.size (by rfl) y

set_option maxHeartbeats 1000000 in
/-- The body on whole staging memrefs: the inputs keep their contents, each result's buffer ends at its `out3_W` of them. -/
theorem sound_kernel3 (c : Dev nD) (E : Set ℕ) (i : grid3.Coords)
    (a0 : Memref sig .tc .vmem S512x4096 .bf16) (ha0 : a0.IsWhole) (a1 : Memref sig .tc .vmem S4096x512 .bf16) (ha1 : a1.IsWhole) (a2 : Memref sig .tc .vmem S512x512 .f32) (ha2 : a2.IsWhole) (a3 : Memref sig .tc .vmem S512x512 .bf16) (ha3 : a3.IsWhole)
    (x0 : Vec F S512x4096 .bf16) (x1 : Vec F S4096x512 .bf16) (K : PUnit → sProp 𝕄) :
    iprop(owns (c : Thread nD τ) a0 fullShare x0 ∗ owns (c : Thread nD τ) a1 fullShare x1 ∗ (∃ d, owns (c : Thread nD τ) a2 fullShare d) ∗ (∃ d, owns (c : Thread nD τ) a3 fullShare d)
        ∗ (iprop(owns (c : Thread nD τ) a0 fullShare x0 ∗ owns (c : Thread nD τ) a1 fullShare x1 ∗ owns (c : Thread nD τ) a2 fullShare (out3_2 x0 x1) ∗ owns (c : Thread nD τ) a3 fullShare (out3_3 x0 x1)) -∗ K ⟨⟩))
      ⊢ wp frame (wpE (defs₀ (F := F)) Variants.none c none) E (cc3__adjmm_kernel i a0 ha0 a1 ha1 a2 ha2 a3 ha3) K := by
  simp only [cc3__adjmm_kernel_eq_skeleton]; unfold cc3__adjmm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_3 _)

/-- The region's proof data on core `c`: the arrays as the region finds them; after the body each input's buffer at
    its block and each result's at its `out3_W` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.KFrameReg4.lean ====
/-
  The fifth region of the kernel's program, run at one grid point: what the body finds in its windows' staging
  buffers and what it leaves there.
-/
import proofs.«108085_g73684458930218_cont_9to1c4b_137_7_alg».proof.Proof.Gen.Kernel.Launch
import proofs.«108085_g73684458930218_cont_9to1c4b_137_7_alg».proof.Proof.Gen.Kernel.Skeleton
import proofs.«108085_g73684458930218_cont_9to1c4b_137_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 4: one 1024 × 1024 tile of the logistic function of Ẑ · Ẑᵀ per grid point

Windows 0 and 1 are two 1024-row panels of ONE array, the decoded embedding: the tile's rows and the tile's columns;
window 2 is the tile of the result the body stores whole. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether or not it was fetched there: when it
    was not, the block index did not move. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's accesses: each a whole staging buffer. -/
abbrev r4_0 : Rect S1024x512 := Rect.unit (s := S1024x512) ![0, 0] S1024x512.size inb_S1024x512_S1024x512_0_0
abbrev r4_1 : Rect S1024x512 := Rect.unit (s := S1024x512) ![0, 0] S1024x512.size inb_S1024x512_S1024x512_0_0
abbrev r4_2 : Rect S1024x1024 := Rect.unit (s := S1024x1024) ![0, 0] S1024x1024.size inb_S1024x1024_S1024x1024_0_0

/-- What the body leaves in window 2's staging buffer, from the input blocks: its one store. -/
def out4_2 (x0 : Vec F S1024x512 .bf16) (x1 : Vec F S1024x512 .bf16) : Vec F S1024x1024 .f32 :=
  View.canon [⟨r4_2, k4_pay1 (View.ld x0 r4_0) (View.ld x1 r4_1)⟩]

/-- The store covers the buffer. -/
theorem cover4_2 (p0 : Vec F S1024x1024 .f32) (y : S1024x1024.Idx) :
    ∃ pc ∈ ([⟨r4_2, p0⟩] : List (View.Piece (Elt F) S1024x1024 .f32)), y ∈ pc.1.set :=
  View.cover_of_tiled [⟨r4_2, p0⟩] S1024x1024.size (by rfl) y

set_option maxHeartbeats 1000000 in
/-- The body on whole staging memrefs: the inputs keep their contents, each result's buffer ends at its `out4_W` of them. -/
theorem sound_kernel4 (c : Dev nD) (E : Set ℕ) (i : grid4.Coords)
    (a0 : Memref sig .tc .vmem S1024x512 .bf16) (ha0 : a0.IsWhole) (a1 : Memref sig .tc .vmem S1024x512 .bf16) (ha1 : a1.IsWhole) (a2 : Memref sig .tc .vmem S1024x1024 .f32) (ha2 : a2.IsWhole)
    (x0 : Vec F S1024x512 .bf16) (x1 : Vec F S1024x512 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out4_2 x0 x1)) -∗ K ⟨⟩))
      ⊢ wp frame (wpE (defs₀ (F := F)) Variants.none c none) E (cc4__recon_kernel i a0 ha0 a1 ha1 a2 ha2) K := by
  simp only [cc4__recon_kernel_eq_skeleton]; unfold cc4__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data on core `c`: the arrays as the region finds them; after the body each input's buffer at
    its block and each result's at its `out4_W` of the input blocks; nothing owed; the one array the two input
    windows stand on is held by halves, one for each. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.KFrameShare4.lean ====
/-
  The fifth region's two input windows stand on ONE array. The array's buffer, held whole at the full share when the
  region is entered, is dealt to the two windows by halves (a points-to at a share is the two points-tos at its halves,
  and an input window only ever reads its array); at the region's exit the halves make the whole again, beside the
  result's array at what the write-backs left.
-/
import proofs.«108085_g73684458930218_cont_9to1c4b_137_7_alg».proof.Proof.Gen.Kernel.Launch
import proofs.«108085_g73684458930218_cont_9to1c4b_137_7_alg».proof.Proof.Gen.Kernel.Skeleton
import proofs.«108085_g73684458930218_cont_9to1c4b_137_7_alg».proof.Proof.Gen.Kernel.Points
import proofs.«108085_g73684458930218_cont_9to1c4b_137_7_alg».proof.Proof.KFrameReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-- The shares the region's proof data hold the windows' arrays at: a half each for the two input windows, the full
    share for the result. -/
theorem share4_0 (c : Dev nD) : (dat4 V c).share 0 = fullShare.left := rfl
theorem share4_1 (c : Dev nD) : (dat4 V c).share 1 = fullShare.right := rfl
theorem share4_2 (c : Dev nD) : (dat4 V c).share 2 = fullShare := rfl

/-- The two distinct arrays behind the region's three windows, one by one. -/
theorem bigSep_arrs4 {M : Type} [URA M] (Φ : Ref sig .tc → sProp M) :
    bigSep (Finset.univ.image (Pipeline.arrRef (cfgs 4).spec)) Φ = iprop(Φ main_v3_1 ∗ Φ main_v4) :=
  bigSep_eq_bigSepL_of_eq [main_v3_1, main_v4] (by decide) (by decide) Φ

set_option backward.isDefEq.respectTransparency.types false in
/-- ENTRY: the core's unscoped buffers at contents `V` are the region's arrays at its proof data's entry contents, the
    shared array by halves, and the unscoped rest. -/
theorem entry4 (c : Dev nD) :
    (unscopedBufs c (V c) : sProp 𝕄) ⊢ iprop((dat4 V c).arrays ((dat4 V c).arrAt · 0)
      ∗ Pipeline.unscopedRest (Ix := Unit) (Name := ℕ) (U := UR sig nD τ) (Lvl := ℕ) spec4 c (V c)) := by
  rw [Pipeline.unscopedBufs_split₀ cfgs 4 winFacts₀4.arr_unscoped c (V c)]
  refine sep_mono ?_ .rfl
  unfold Pipeline.arrBufs Pipeline.Dat.arrays
  rw [bigSep_arrs4, bigSep_W4]
  beta_reduce
  rw [share4_0, share4_1, share4_2, (arr_whole4 0).set_eq_univ, (arr_whole4 2).set_eq_univ,
    show (dat4 V c).arrAt 0 0 = V c main_v3_1 from rfl, show (dat4 V c).arrAt 1 0 = V c main_v3_1 from rfl,
    show (dat4 V c).arrAt 2 0 = V c main_v4 from rfl]
  iintro ⟨H1, H2⟩
  ihave Hs := (pointsTo_share (PosShare.mem_left_op_right fullShare)).1 $$ H1
  icases Hs with ⟨Ha, Hb⟩
  isplitl [Ha]; · iexact Ha
  isplitl [Hb]; · iexact Hb
  iexact H2

set_option backward.isDefEq.respectTransparency.types false in
/-- EXIT: the region's arrays after the last write-back and the unscoped rest are the core's unscoped buffers at any
    contents that have the result's array at what the write-backs left and agree with the entry contents elsewhere. -/
theorem exit4 (c : Dev nD) (V' : (b : Ref sig .tc) → Buf (Elt F) ((c : Thread nD τ).loc b))
    (hout : V' main_v4 = (dat4 V c).arrAt 2 cfg4.N) (hrest : ∀ b, b ≠ main_v4 → V' b = V c b) :
    iprop((dat4 V c).arrays ((dat4 V c).arrAt · cfg4.N)
      ∗ Pipeline.unscopedRest (Ix := Unit) (Name := ℕ) (U := UR sig nD τ) (Lvl := ℕ) spec4 c (V c)) ⊢ (unscopedBufs c V' : sProp 𝕄) := by
  rw [Pipeline.unscopedBufs_split₀ cfgs 4 winFacts₀4.arr_unscoped c V']
  refine sep_mono ?_ (Entails.of_eq ?_)
  · unfold Pipeline.arrBufs Pipeline.Dat.arrays
    rw [bigSep_arrs4, bigSep_W4]
    beta_reduce
    rw [share4_0, share4_1, share4_2, (arr_whole4 0).set_eq_univ, (arr_whole4 2).set_eq_univ,
      (dat4 V c).arrAt_in 0 rfl, (dat4 V c).arrAt_in 1 rfl, hout, hrest main_v3_1 (by decide),
      show (dat4 V c).A 0 = V c main_v3_1 from rfl, show (dat4 V c).A 1 = V c main_v3_1 from rfl]
    iintro ⟨Ha, Hb, H2⟩
    isplitl [Ha Hb]
    · iapply (pointsTo_share (PosShare.mem_left_op_right fullShare)).2
      isplitl [Ha]; · iexact Ha
      iexact Hb
    iexact H2
  · unfold Pipeline.unscopedRest
    exact bigSep_congr fun b hb => by
      rw [hrest b (fun e => (Finset.mem_sdiff.mp hb).2 (Finset.mem_image.mpr ⟨2, Finset.mem_univ _, e ▸ rfl⟩))]

end Cert.Kernel.Frm

end
-- ==== Proof.KFrameRun.lean ====
/-
  The kernel's program is five regions in a row. This file folds the buffers' contents through them, gives each region
  its proof data at the contents it is entered with, states each region as a segment of the program, and runs the
  program: every weakly fair execution ends, nothing faulting, with every unscoped buffer at the fold's last valuation
  (`run_main`); the argument arrays end as launched (`frame`).
-/
import proofs.«108085_g73684458930218_cont_9to1c4b_137_7_alg».proof.Proof.Gen.Kernel.Launch
import proofs.«108085_g73684458930218_cont_9to1c4b_137_7_alg».proof.Proof.Gen.Kernel.Skeleton
import proofs.«108085_g73684458930218_cont_9to1c4b_137_7_alg».proof.Proof.Gen.Kernel.Points
import proofs.«108085_g73684458930218_cont_9to1c4b_137_7_alg».proof.Proof.KFrameReg0
import proofs.«108085_g73684458930218_cont_9to1c4b_137_7_alg».proof.Proof.KFrameReg1
import proofs.«108085_g73684458930218_cont_9to1c4b_137_7_alg».proof.Proof.KFrameReg2
import proofs.«108085_g73684458930218_cont_9to1c4b_137_7_alg».proof.Proof.KFrameReg3
import proofs.«108085_g73684458930218_cont_9to1c4b_137_7_alg».proof.Proof.KFrameReg4
import proofs.«108085_g73684458930218_cont_9to1c4b_137_7_alg».proof.Proof.KFrameShare4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents between the regions: a fold from the launch memory

The program is five regions and nothing else. Each region changes only the arrays its result windows stand on. -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After region 0: its arrays at what its write-backs leave, every other buffer as the region found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what its write-backs leave, every other buffer as the region found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what its write-backs leave, every other buffer as the region found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After region 3: its arrays at what its write-backs leave, every other buffer as the region found it. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-- After region 4: the reconstructed adjacency at what the write-backs leave, every other buffer as the region found it
    (its two input windows stand on one array, which it only reads). -/
def W5 (c : Dev nD) : Valuation τ sig (Elt F) :=
  Function.update (W4 m ρ c) (Proc.devRef .tc main_v4) ((dat4 (V4 m ρ) c).arrAt 2 cfg4.N)
theorem W5_out (c : Dev nD) : W5 m ρ c (Proc.devRef .tc main_v4) = (dat4 (V4 m ρ) c).arrAt 2 cfg4.N := by
  unfold W5; exact Function.update_self ..
theorem W5_of_ne (c : Dev nD) (b : Ref sig .tc) (hb : b ≠ main_v4) :
    W5 m ρ c (Proc.devRef .tc b) = W4 m ρ c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m ρ c b

/-! # The proof data of the five regions and what rides beside the buffers -/

/-- No region has a prefetched table. -/
abbrev adm : (p : Fin 5) → (pcfgs (F := F) p).Adm := fun p => (cfgs p).toPCfg_adm
/-- Every region's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's `owes` apart. -/
abbrev Tₙ (c : Dev nD) : sProp 𝕄 := iprop(StableHlo.held (c : Thread nD τ) (Pipeline.ucRefs τ sig) (W5 m ρ c) ∗ ∃ r, prngReg c r)

/-! # The regions as segments -/

set_option backward.isDefEq.respectTransparency.types false in
/-- Region 0 as a segment of the program: entered with every unscoped buffer at `W0`, left with them at `W1`. Its
    arrays are split out of the unscoped buffers at entry and put back, at what the write-backs left, at exit; the
    generator register rides through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program: entered with every unscoped buffer at `W1`, left with them at `W2`. Its
    arrays are split out of the unscoped buffers at entry and put back, at what the write-backs left, at exit; the
    generator register rides through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the program: entered with every unscoped buffer at `W2`, left with them at `W3`. Its
    arrays are split out of the unscoped buffers at entry and put back, at what the write-backs left, at exit; the
    generator register rides through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of the program: entered with every unscoped buffer at `W3`, left with them at `W4`. Its
    arrays are split out of the unscoped buffers at entry and put back, at what the write-backs left, at exit; the
    generator register rides through the region's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment of the program: entered with every unscoped buffer at `W4`, left with them at `W5`. The one
    array its two input windows stand on is dealt to them by halves at entry and made whole again at exit; the
    generator register rides through the region's invariant; nothing is owed; the kernel has no semaphore of its own. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hsplit := entry4 (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4 (V4 m ρ) c (V5 m ρ c) (W5_out m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! # The program as its five segments, and the run -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]

/-- The program is the run of the five segments. -/
theorem main_run (c : Dev nD) : main (F := F) c = Pipeline.Seg.run (segs m ρ) := (main_chain c).trans (by chain_rfl)

set_option backward.isDefEq.respectTransparency.types false in
/-- THE RUN: from any memory with zero counters every weakly fair execution of the program ends, nothing faulting, and
    every final memory holds each unscoped buffer at the last valuation of the fold, `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! # The arguments end as launched

No region writes an argument: a region either reads it through an input window or does not touch it. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 2).trans (((dat1 (V1 m ρ) c).arrAt_in 2 rfl _).trans (A_eq1 (V1 m ρ) c 2))
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 2).trans (((dat2 (V2 m ρ) c).arrAt_in 2 rfl _).trans (A_eq2 (V2 m ρ) c 2))
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- THE FRAME: every weakly fair execution ends, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.Kernel.Frm

end
-- ==== Proof.FrameReg0.lean ====
/-
  The first region of the kernel's program, run at one grid point: what the body finds in its windows' staging
  buffers and what it leaves there.
-/
import proofs.«108085_g73684458930218_cont_9to1c4b_137_7_alg».proof.Proof.Gen.KernelIdeal.Launch
import proofs.«108085_g73684458930218_cont_9to1c4b_137_7_alg».proof.Proof.Gen.KernelIdeal.Skeleton
import proofs.«108085_g73684458930218_cont_9to1c4b_137_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 0: one row panel of tanh (Z · W4) per grid point

Window 0 is the 1024-row panel of Z at the point, window 1 the whole of W4 (the same block at every point),
window 2 the panel of the result the body stores whole. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there: when it
    was not, the block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each a whole staging buffer. -/
abbrev r0_0 : Rect S1024x128 := Rect.unit (s := S1024x128) ![0, 0] S1024x128.size inb_S1024x128_S1024x128_0_0
abbrev r0_1 : Rect S128x256 := Rect.unit (s := S128x256) ![0, 0] S128x256.size inb_S128x256_S128x256_0_0
abbrev r0_2 : Rect S1024x256 := Rect.unit (s := S1024x256) ![0, 0] S1024x256.size inb_S1024x256_S1024x256_0_0

/-- What the body leaves in window 2's staging buffer, from the input blocks: its one store. -/
def out0_2 (x0 : Vec F S1024x128 .f32) (x1 : Vec F S128x256 .f32) : Vec F S1024x256 .bf16 :=
  View.canon [⟨r0_2, k0_pay1 (View.ld x0 r0_0) (View.ld x1 r0_1)⟩]

/-- The store covers the buffer. -/
theorem cover0_2 (p0 : Vec F S1024x256 .bf16) (y : S1024x256.Idx) :
    ∃ pc ∈ ([⟨r0_2, p0⟩] : List (View.Piece (Elt F) S1024x256 .bf16)), y ∈ pc.1.set :=
  View.cover_of_tiled [⟨r0_2, p0⟩] S1024x256.size (by rfl) y

set_option maxHeartbeats 1000000 in
/-- The body on whole staging memrefs: the inputs keep their contents, each result's buffer ends at its `out0_W` of them. -/
theorem sound_kernel0 (c : Dev nD) (E : Set ℕ) (i : grid0.Coords)
    (a0 : Memref sig .tc .vmem S1024x128 .f32) (ha0 : a0.IsWhole) (a1 : Memref sig .tc .vmem S128x256 .f32) (ha1 : a1.IsWhole) (a2 : Memref sig .tc .vmem S1024x256 .bf16) (ha2 : a2.IsWhole)
    (x0 : Vec F S1024x128 .f32) (x1 : Vec F S128x256 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__l1_kernel i a0 ha0 a1 ha1 a2 ha2) K := by
  simp only [cc0__l1_kernel_eq_skeleton]; unfold cc0__l1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body each input's buffer at
    its block and each result's at its `out0_W` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.FrameReg1.lean ====
/-
  The second region of the kernel's program, run at one grid point: what the body finds in its windows' staging
  buffers and what it leaves there.
-/
import proofs.«108085_g73684458930218_cont_9to1c4b_137_7_alg».proof.Proof.Gen.KernelIdeal.Launch
import proofs.«108085_g73684458930218_cont_9to1c4b_137_7_alg».proof.Proof.Gen.KernelIdeal.Skeleton
import proofs.«108085_g73684458930218_cont_9to1c4b_137_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 1: one row panel of tanh ((A · S1) · W5) per grid point, and the same panel of A copied

Window 0 is the 512-row panel of A at the point, window 1 the whole of S1, window 2 the whole of W5 (each the same
block at every point), window 3 the panel of the result, window 4 the panel of the copy of A; the body stores both whole. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there: when it
    was not, the block index did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each a whole staging buffer. -/
abbrev r1_0 : Rect S512x4096 := Rect.unit (s := S512x4096) ![0, 0] S512x4096.size inb_S512x4096_S512x4096_0_0
abbrev r1_1 : Rect S4096x256 := Rect.unit (s := S4096x256) ![0, 0] S4096x256.size inb_S4096x256_S4096x256_0_0
abbrev r1_2 : Rect S256x512 := Rect.unit (s := S256x512) ![0, 0] S256x512.size inb_S256x512_S256x512_0_0
abbrev r1_3 : Rect S512x512 := Rect.unit (s := S512x512) ![0, 0] S512x512.size inb_S512x512_S512x512_0_0
abbrev r1_4 : Rect S512x4096 := Rect.unit (s := S512x4096) ![0, 0] S512x4096.size inb_S512x4096_S512x4096_0_0

/-- What the body leaves in window 3's staging buffer, from the input blocks: its one store. -/
def out1_3 (x0 : Vec F S512x4096 .f32) (x1 : Vec F S4096x256 .bf16) (x2 : Vec F S256x512 .f32) : Vec F S512x512 .bf16 :=
  View.canon [⟨r1_3, k1_pay2 (View.ld x0 r1_0) (View.ld x1 r1_1) (View.ld x2 r1_2)⟩]

/-- The store covers the buffer. -/
theorem cover1_3 (p0 : Vec F S512x512 .bf16) (y : S512x512.Idx) :
    ∃ pc ∈ ([⟨r1_3, p0⟩] : List (View.Piece (Elt F) S512x512 .bf16)), y ∈ pc.1.set :=
  View.cover_of_tiled [⟨r1_3, p0⟩] S512x512.size (by rfl) y

/-- What the body leaves in window 4's staging buffer, from the input blocks: its one store. -/
def out1_4 (x0 : Vec F S512x4096 .f32) (x1 : Vec F S4096x256 .bf16) (x2 : Vec F S256x512 .f32) : Vec F S512x4096 .bf16 :=
  View.canon [⟨r1_4, k1_pay1 (View.ld x0 r1_0)⟩]

/-- The store covers the buffer. -/
theorem cover1_4 (p0 : Vec F S512x4096 .bf16) (y : S512x4096.Idx) :
    ∃ pc ∈ ([⟨r1_4, p0⟩] : List (View.Piece (Elt F) S512x4096 .bf16)), y ∈ pc.1.set :=
  View.cover_of_tiled [⟨r1_4, p0⟩] S512x4096.size (by rfl) y

set_option maxHeartbeats 1000000 in
/-- The body on whole staging memrefs: the inputs keep their contents, each result's buffer ends at its `out1_W` of them. -/
theorem sound_kernel1 (c : Dev nD) (E : Set ℕ) (i : grid1.Coords)
    (a0 : Memref sig .tc .vmem S512x4096 .f32) (ha0 : a0.IsWhole) (a1 : Memref sig .tc .vmem S4096x256 .bf16) (ha1 : a1.IsWhole) (a2 : Memref sig .tc .vmem S256x512 .f32) (ha2 : a2.IsWhole) (a3 : Memref sig .tc .vmem S512x512 .bf16) (ha3 : a3.IsWhole) (a4 : Memref sig .tc .vmem S512x4096 .bf16) (ha4 : a4.IsWhole)
    (x0 : Vec F S512x4096 .f32) (x1 : Vec F S4096x256 .bf16) (x2 : Vec F S256x512 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2) ∗ owns (c : Thread nD τ) a4 fullShare (out1_4 x0 x1 x2)) -∗ K ⟨⟩))
      ⊢ wp frame (wpE (defs₀ (F := F)) Variants.none c none) E (cc1__l2_kernel i a0 ha0 a1 ha1 a2 ha2 a3 ha3 a4 ha4) K := by
  simp only [cc1__l2_kernel_eq_skeleton]; unfold cc1__l2_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The region's proof data on core `c`: the arrays as the region finds them; after the body each input's buffer at
    its block and each result's at its `out1_W` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.FrameReg2.lean ====
/-
  The third region of the kernel's program, run at one grid point: what the body finds in its windows' staging
  buffers and what it leaves there.
-/
import proofs.«108085_g73684458930218_cont_9to1c4b_137_7_alg».proof.Proof.Gen.KernelIdeal.Launch
import proofs.«108085_g73684458930218_cont_9to1c4b_137_7_alg».proof.Proof.Gen.KernelIdeal.Skeleton
import proofs.«108085_g73684458930218_cont_9to1c4b_137_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 2: one row panel of (A · S2) · W6 per grid point

Window 0 is the 512-row panel of the copy of A at the point, window 1 the whole of S2, window 2 the whole of W6 (each
the same block at every point), window 3 the panel of the result the body stores whole. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not it was fetched there: when it
    was not, the block index did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each a whole staging buffer. -/
abbrev r2_0 : Rect S512x4096 := Rect.unit (s := S512x4096) ![0, 0] S512x4096.size inb_S512x4096_S512x4096_0_0
abbrev r2_1 : Rect S4096x512 := Rect.unit (s := S4096x512) ![0, 0] S4096x512.size inb_S4096x512_S4096x512_0_0
abbrev r2_2 : Rect S512x512 := Rect.unit (s := S512x512) ![0, 0] S512x512.size inb_S512x512_S512x512_0_0
abbrev r2_3 : Rect S512x512 := Rect.unit (s := S512x512) ![0, 0] S512x512.size inb_S512x512_S512x512_0_0

/-- What the body leaves in window 3's staging buffer, from the input blocks: its one store. -/
def out2_3 (x0 : Vec F S512x4096 .bf16) (x1 : Vec F S4096x512 .bf16) (x2 : Vec F S512x512 .f32) : Vec F S512x512 .bf16 :=
  View.canon [⟨r2_3, k2_pay1 (View.ld x0 r2_0) (View.ld x1 r2_1) (View.ld x2 r2_2)⟩]

/-- The store covers the buffer. -/
theorem cover2_3 (p0 : Vec F S512x512 .bf16) (y : S512x512.Idx) :
    ∃ pc ∈ ([⟨r2_3, p0⟩] : List (View.Piece (Elt F) S512x512 .bf16)), y ∈ pc.1.set :=
  View.cover_of_tiled [⟨r2_3, p0⟩] S512x512.size (by rfl) y

set_option maxHeartbeats 1000000 in
/-- The body on whole staging memrefs: the inputs keep their contents, each result's buffer ends at its `out2_W` of them. -/
theorem sound_kernel2 (c : Dev nD) (E : Set ℕ) (i : grid2.Coords)
    (a0 : Memref sig .tc .vmem S512x4096 .bf16) (ha0 : a0.IsWhole) (a1 : Memref sig .tc .vmem S4096x512 .bf16) (ha1 : a1.IsWhole) (a2 : Memref sig .tc .vmem S512x512 .f32) (ha2 : a2.IsWhole) (a3 : Memref sig .tc .vmem S512x512 .bf16) (ha3 : a3.IsWhole)
    (x0 : Vec F S512x4096 .bf16) (x1 : Vec F S4096x512 .bf16) (x2 : Vec F S512x512 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__l3_kernel i a0 ha0 a1 ha1 a2 ha2 a3 ha3) K := by
  simp only [cc2__l3_kernel_eq_skeleton]; unfold cc2__l3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body each input's buffer at
    its block and each result's at its `out2_W` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.FrameReg3.lean ====
/-
  The fourth region of the kernel's program, run at one grid point: what the body finds in its windows' staging
  buffers and what it leaves there.
-/
import proofs.«108085_g73684458930218_cont_9to1c4b_137_7_alg».proof.Proof.Gen.KernelIdeal.Launch
import proofs.«108085_g73684458930218_cont_9to1c4b_137_7_alg».proof.Proof.Gen.KernelIdeal.Skeleton
import proofs.«108085_g73684458930218_cont_9to1c4b_137_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 3: one row panel of A · S3 per grid point, stored twice

Window 0 is the 512-row panel of the copy of A at the point, window 1 the whole of S3 (the same block at every point),
windows 2 and 3 the panel of the product, which the body stores whole into each. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether or not it was fetched there: when it
    was not, the block index did not move. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The body's accesses: each a whole staging buffer. -/
abbrev r3_0 : Rect S512x4096 := Rect.unit (s := S512x4096) ![0, 0] S512x4096.size inb_S512x4096_S512x4096_0_0
abbrev r3_1 : Rect S4096x512 := Rect.unit (s := S4096x512) ![0, 0] S4096x512.size inb_S4096x512_S4096x512_0_0
abbrev r3_2 : Rect S512x512 := Rect.unit (s := S512x512) ![0, 0] S512x512.size inb_S512x512_S512x512_0_0
abbrev r3_3 : Rect S512x512 := Rect.unit (s := S512x512) ![0, 0] S512x512.size inb_S512x512_S512x512_0_0

/-- What the body leaves in window 2's staging buffer, from the input blocks: its one store. -/
def out3_2 (x0 : Vec F S512x4096 .bf16) (x1 : Vec F S4096x512 .bf16) : Vec F S512x512 .f32 :=
  View.canon [⟨r3_2, k3_pay1 (View.ld x0 r3_0) (View.ld x1 r3_1)⟩]

/-- The store covers the buffer. -/
theorem cover3_2 (p0 : Vec F S512x512 .f32) (y : S512x512.Idx) :
    ∃ pc ∈ ([⟨r3_2, p0⟩] : List (View.Piece (Elt F) S512x512 .f32)), y ∈ pc.1.set :=
  View.cover_of_tiled [⟨r3_2, p0⟩] S512x512.size (by rfl) y

/-- What the body leaves in window 3's staging buffer, from the input blocks: its one store. -/
def out3_3 (x0 : Vec F S512x4096 .bf16) (x1 : Vec F S4096x512 .bf16) : Vec F S512x512 .bf16 :=
  View.canon [⟨r3_3, k3_pay2 (View.ld x0 r3_0) (View.ld x1 r3_1)⟩]

/-- The store covers the buffer. -/
theorem cover3_3 (p0 : Vec F S512x512 .bf16) (y : S512x512.Idx) :
    ∃ pc ∈ ([⟨r3_3, p0⟩] : List (View.Piece (Elt F) S512x512 .bf16)), y ∈ pc.1.set :=
  View.cover_of_tiled [⟨r3_3, p0⟩] S512x512.size (by rfl) y

set_option maxHeartbeats 1000000 in
/-- The body on whole staging memrefs: the inputs keep their contents, each result's buffer ends at its `out3_W` of them. -/
theorem sound_kernel3 (c : Dev nD) (E : Set ℕ) (i : grid3.Coords)
    (a0 : Memref sig .tc .vmem S512x4096 .bf16) (ha0 : a0.IsWhole) (a1 : Memref sig .tc .vmem S4096x512 .bf16) (ha1 : a1.IsWhole) (a2 : Memref sig .tc .vmem S512x512 .f32) (ha2 : a2.IsWhole) (a3 : Memref sig .tc .vmem S512x512 .bf16) (ha3 : a3.IsWhole)
    (x0 : Vec F S512x4096 .bf16) (x1 : Vec F S4096x512 .bf16) (K : PUnit → sProp 𝕄) :
    iprop(owns (c : Thread nD τ) a0 fullShare x0 ∗ owns (c : Thread nD τ) a1 fullShare x1 ∗ (∃ d, owns (c : Thread nD τ) a2 fullShare d) ∗ (∃ d, owns (c : Thread nD τ) a3 fullShare d)
        ∗ (iprop(owns (c : Thread nD τ) a0 fullShare x0 ∗ owns (c : Thread nD τ) a1 fullShare x1 ∗ owns (c : Thread nD τ) a2 fullShare (out3_2 x0 x1) ∗ owns (c : Thread nD τ) a3 fullShare (out3_3 x0 x1)) -∗ K ⟨⟩))
      ⊢ wp frame (wpE (defs₀ (F := F)) Variants.none c none) E (cc3__adjmm_kernel i a0 ha0 a1 ha1 a2 ha2 a3 ha3) K := by
  simp only [cc3__adjmm_kernel_eq_skeleton]; unfold cc3__adjmm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_3 _)

/-- The region's proof data on core `c`: the arrays as the region finds them; after the body each input's buffer at
    its block and each result's at its `out3_W` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.FrameReg4.lean ====
/-
  The fifth region of the kernel's program, run at one grid point: what the body finds in its windows' staging
  buffers and what it leaves there.
-/
import proofs.«108085_g73684458930218_cont_9to1c4b_137_7_alg».proof.Proof.Gen.KernelIdeal.Launch
import proofs.«108085_g73684458930218_cont_9to1c4b_137_7_alg».proof.Proof.Gen.KernelIdeal.Skeleton
import proofs.«108085_g73684458930218_cont_9to1c4b_137_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-! # Region 4: one 1024 × 1024 tile of the logistic function of Ẑ · Ẑᵀ per grid point

Windows 0 and 1 are two 1024-row panels of ONE array, the decoded embedding: the tile's rows and the tile's columns;
window 2 is the tile of the result the body stores whole. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether or not it was fetched there: when it
    was not, the block index did not move. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's accesses: each a whole staging buffer. -/
abbrev r4_0 : Rect S1024x512 := Rect.unit (s := S1024x512) ![0, 0] S1024x512.size inb_S1024x512_S1024x512_0_0
abbrev r4_1 : Rect S1024x512 := Rect.unit (s := S1024x512) ![0, 0] S1024x512.size inb_S1024x512_S1024x512_0_0
abbrev r4_2 : Rect S1024x1024 := Rect.unit (s := S1024x1024) ![0, 0] S1024x1024.size inb_S1024x1024_S1024x1024_0_0

/-- What the body leaves in window 2's staging buffer, from the input blocks: its one store. -/
def out4_2 (x0 : Vec F S1024x512 .bf16) (x1 : Vec F S1024x512 .bf16) : Vec F S1024x1024 .f32 :=
  View.canon [⟨r4_2, k4_pay1 (View.ld x0 r4_0) (View.ld x1 r4_1)⟩]

/-- The store covers the buffer. -/
theorem cover4_2 (p0 : Vec F S1024x1024 .f32) (y : S1024x1024.Idx) :
    ∃ pc ∈ ([⟨r4_2, p0⟩] : List (View.Piece (Elt F) S1024x1024 .f32)), y ∈ pc.1.set :=
  View.cover_of_tiled [⟨r4_2, p0⟩] S1024x1024.size (by rfl) y

set_option maxHeartbeats 1000000 in
/-- The body on whole staging memrefs: the inputs keep their contents, each result's buffer ends at its `out4_W` of them. -/
theorem sound_kernel4 (c : Dev nD) (E : Set ℕ) (i : grid4.Coords)
    (a0 : Memref sig .tc .vmem S1024x512 .bf16) (ha0 : a0.IsWhole) (a1 : Memref sig .tc .vmem S1024x512 .bf16) (ha1 : a1.IsWhole) (a2 : Memref sig .tc .vmem S1024x1024 .f32) (ha2 : a2.IsWhole)
    (x0 : Vec F S1024x512 .bf16) (x1 : Vec F S1024x512 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out4_2 x0 x1)) -∗ K ⟨⟩))
      ⊢ wp frame (wpE (defs₀ (F := F)) Variants.none c none) E (cc4__recon_kernel i a0 ha0 a1 ha1 a2 ha2) K := by
  simp only [cc4__recon_kernel_eq_skeleton]; unfold cc4__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data on core `c`: the arrays as the region finds them; after the body each input's buffer at
    its block and each result's at its `out4_W` of the input blocks; nothing owed; the one array the two input
    windows stand on is held by halves, one for each. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.FrameShare4.lean ====
/-
  The fifth region's two input windows stand on ONE array. The array's buffer, held whole at the full share when the
  region is entered, is dealt to the two windows by halves (a points-to at a share is the two points-tos at its halves,
  and an input window only ever reads its array); at the region's exit the halves make the whole again, beside the
  result's array at what the write-backs left.
-/
import proofs.«108085_g73684458930218_cont_9to1c4b_137_7_alg».proof.Proof.Gen.KernelIdeal.Launch
import proofs.«108085_g73684458930218_cont_9to1c4b_137_7_alg».proof.Proof.Gen.KernelIdeal.Skeleton
import proofs.«108085_g73684458930218_cont_9to1c4b_137_7_alg».proof.Proof.Gen.KernelIdeal.Points
import proofs.«108085_g73684458930218_cont_9to1c4b_137_7_alg».proof.Proof.FrameReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, on every core
variable (V : (c : Dev nD) → (b : Ref sig .tc) → Buf (Elt F) ((c : Thread nD τ).loc b))

/-- The shares the region's proof data hold the windows' arrays at: a half each for the two input windows, the full
    share for the result. -/
theorem share4_0 (c : Dev nD) : (dat4 V c).share 0 = fullShare.left := rfl
theorem share4_1 (c : Dev nD) : (dat4 V c).share 1 = fullShare.right := rfl
theorem share4_2 (c : Dev nD) : (dat4 V c).share 2 = fullShare := rfl

/-- The two distinct arrays behind the region's three windows, one by one. -/
theorem bigSep_arrs4 {M : Type} [URA M] (Φ : Ref sig .tc → sProp M) :
    bigSep (Finset.univ.image (Pipeline.arrRef (cfgs 4).spec)) Φ = iprop(Φ main_v3_1 ∗ Φ main_v4) :=
  bigSep_eq_bigSepL_of_eq [main_v3_1, main_v4] (by decide) (by decide) Φ

set_option backward.isDefEq.respectTransparency.types false in
/-- ENTRY: the core's unscoped buffers at contents `V` are the region's arrays at its proof data's entry contents, the
    shared array by halves, and the unscoped rest. -/
theorem entry4 (c : Dev nD) :
    (unscopedBufs c (V c) : sProp 𝕄) ⊢ iprop((dat4 V c).arrays ((dat4 V c).arrAt · 0)
      ∗ Pipeline.unscopedRest (Ix := Unit) (Name := ℕ) (U := UR sig nD τ) (Lvl := ℕ) spec4 c (V c)) := by
  rw [Pipeline.unscopedBufs_split₀ cfgs 4 winFacts₀4.arr_unscoped c (V c)]
  refine sep_mono ?_ .rfl
  unfold Pipeline.arrBufs Pipeline.Dat.arrays
  rw [bigSep_arrs4, bigSep_W4]
  beta_reduce
  rw [share4_0, share4_1, share4_2, (arr_whole4 0).set_eq_univ, (arr_whole4 2).set_eq_univ,
    show (dat4 V c).arrAt 0 0 = V c main_v3_1 from rfl, show (dat4 V c).arrAt 1 0 = V c main_v3_1 from rfl,
    show (dat4 V c).arrAt 2 0 = V c main_v4 from rfl]
  iintro ⟨H1, H2⟩
  ihave Hs := (pointsTo_share (PosShare.mem_left_op_right fullShare)).1 $$ H1
  icases Hs with ⟨Ha, Hb⟩
  isplitl [Ha]; · iexact Ha
  isplitl [Hb]; · iexact Hb
  iexact H2

set_option backward.isDefEq.respectTransparency.types false in
/-- EXIT: the region's arrays after the last write-back and the unscoped rest are the core's unscoped buffers at any
    contents that have the result's array at what the write-backs left and agree with the entry contents elsewhere. -/
theorem exit4 (c : Dev nD) (V' : (b : Ref sig .tc) → Buf (Elt F) ((c : Thread nD τ).loc b))
    (hout : V' main_v4 = (dat4 V c).arrAt 2 cfg4.N) (hrest : ∀ b, b ≠ main_v4 → V' b = V c b) :
    iprop((dat4 V c).arrays ((dat4 V c).arrAt · cfg4.N)
      ∗ Pipeline.unscopedRest (Ix := Unit) (Name := ℕ) (U := UR sig nD τ) (Lvl := ℕ) spec4 c (V c)) ⊢ (unscopedBufs c V' : sProp 𝕄) := by
  rw [Pipeline.unscopedBufs_split₀ cfgs 4 winFacts₀4.arr_unscoped c V']
  refine sep_mono ?_ (Entails.of_eq ?_)
  · unfold Pipeline.arrBufs Pipeline.Dat.arrays
    rw [bigSep_arrs4, bigSep_W4]
    beta_reduce
    rw [share4_0, share4_1, share4_2, (arr_whole4 0).set_eq_univ, (arr_whole4 2).set_eq_univ,
      (dat4 V c).arrAt_in 0 rfl, (dat4 V c).arrAt_in 1 rfl, hout, hrest main_v3_1 (by decide),
      show (dat4 V c).A 0 = V c main_v3_1 from rfl, show (dat4 V c).A 1 = V c main_v3_1 from rfl]
    iintro ⟨Ha, Hb, H2⟩
    isplitl [Ha Hb]
    · iapply (pointsTo_share (PosShare.mem_left_op_right fullShare)).2
      isplitl [Ha]; · iexact Ha
      iexact Hb
    iexact H2
  · unfold Pipeline.unscopedRest
    exact bigSep_congr fun b hb => by
      rw [hrest b (fun e => (Finset.mem_sdiff.mp hb).2 (Finset.mem_image.mpr ⟨2, Finset.mem_univ _, e ▸ rfl⟩))]

end Cert.KernelIdeal.Frm

end
-- ==== Proof.FrameRun.lean ====
/-
  The kernel's program is five regions in a row. This file folds the buffers' contents through them, gives each region
  its proof data at the contents it is entered with, states each region as a segment of the program, and runs the
  program: every weakly fair execution ends, nothing faulting, with every unscoped buffer at the fold's last valuation
  (`run_main`); the argument arrays end as launched (`frame`).
-/
import proofs.«108085_g73684458930218_cont_9to1c4b_137_7_alg».proof.Proof.Gen.KernelIdeal.Launch
import proofs.«108085_g73684458930218_cont_9to1c4b_137_7_alg».proof.Proof.Gen.KernelIdeal.Skeleton
import proofs.«108085_g73684458930218_cont_9to1c4b_137_7_alg».proof.Proof.Gen.KernelIdeal.Points
import proofs.«108085_g73684458930218_cont_9to1c4b_137_7_alg».proof.Proof.FrameReg0
import proofs.«108085_g73684458930218_cont_9to1c4b_137_7_alg».proof.Proof.FrameReg1
import proofs.«108085_g73684458930218_cont_9to1c4b_137_7_alg».proof.Proof.FrameReg2
import proofs.«108085_g73684458930218_cont_9to1c4b_137_7_alg».proof.Proof.FrameReg3
import proofs.«108085_g73684458930218_cont_9to1c4b_137_7_alg».proof.Proof.FrameReg4
import proofs.«108085_g73684458930218_cont_9to1c4b_137_7_alg».proof.Proof.FrameShare4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents between the regions: a fold from the launch memory

The program is five regions and nothing else. Each region changes only the arrays its result windows stand on. -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After region 0: its arrays at what its write-backs leave, every other buffer as the region found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what its write-backs leave, every other buffer as the region found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what its write-backs leave, every other buffer as the region found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After region 3: its arrays at what its write-backs leave, every other buffer as the region found it. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-- After region 4: the reconstructed adjacency at what the write-backs leave, every other buffer as the region found it
    (its two input windows stand on one array, which it only reads). -/
def W5 (c : Dev nD) : Valuation τ sig (Elt F) :=
  Function.update (W4 m ρ c) (Proc.devRef .tc main_v4) ((dat4 (V4 m ρ) c).arrAt 2 cfg4.N)
theorem W5_out (c : Dev nD) : W5 m ρ c (Proc.devRef .tc main_v4) = (dat4 (V4 m ρ) c).arrAt 2 cfg4.N := by
  unfold W5; exact Function.update_self ..
theorem W5_of_ne (c : Dev nD) (b : Ref sig .tc) (hb : b ≠ main_v4) :
    W5 m ρ c (Proc.devRef .tc b) = W4 m ρ c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m ρ c b

/-! # The proof data of the five regions and what rides beside the buffers -/

/-- No region has a prefetched table. -/
abbrev adm : (p : Fin 5) → (pcfgs (F := F) p).Adm := fun p => (cfgs p).toPCfg_adm
/-- Every region's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's `owes` apart. -/
abbrev Tₙ (c : Dev nD) : sProp 𝕄 := iprop(StableHlo.held (c : Thread nD τ) (Pipeline.ucRefs τ sig) (W5 m ρ c) ∗ ∃ r, prngReg c r)

/-! # The regions as segments -/

set_option backward.isDefEq.respectTransparency.types false in
/-- Region 0 as a segment of the program: entered with every unscoped buffer at `W0`, left with them at `W1`. Its
    arrays are split out of the unscoped buffers at entry and put back, at what the write-backs left, at exit; the
    generator register rides through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program: entered with every unscoped buffer at `W1`, left with them at `W2`. Its
    arrays are split out of the unscoped buffers at entry and put back, at what the write-backs left, at exit; the
    generator register rides through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the program: entered with every unscoped buffer at `W2`, left with them at `W3`. Its
    arrays are split out of the unscoped buffers at entry and put back, at what the write-backs left, at exit; the
    generator register rides through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of the program: entered with every unscoped buffer at `W3`, left with them at `W4`. Its
    arrays are split out of the unscoped buffers at entry and put back, at what the write-backs left, at exit; the
    generator register rides through the region's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment of the program: entered with every unscoped buffer at `W4`, left with them at `W5`. The one
    array its two input windows stand on is dealt to them by halves at entry and made whole again at exit; the
    generator register rides through the region's invariant; nothing is owed; the kernel has no semaphore of its own. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hsplit := entry4 (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4 (V4 m ρ) c (V5 m ρ c) (W5_out m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! # The program as its five segments, and the run -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]

/-- The program is the run of the five segments. -/
theorem main_run (c : Dev nD) : main (F := F) c = Pipeline.Seg.run (segs m ρ) := (main_chain c).trans (by chain_rfl)

set_option backward.isDefEq.respectTransparency.types false in
/-- THE RUN: from any memory with zero counters every weakly fair execution of the program ends, nothing faulting, and
    every final memory holds each unscoped buffer at the last valuation of the fold, `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! # The arguments end as launched

No region writes an argument: a region either reads it through an input window or does not touch it. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 2).trans (((dat1 (V1 m ρ) c).arrAt_in 2 rfl _).trans (A_eq1 (V1 m ρ) c 2))
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 2).trans (((dat2 (V2 m ρ) c).arrAt_in 2 rfl _).trans (A_eq2 (V2 m ρ) c 2))
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- THE FRAME: every weakly fair execution ends, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.KernelIdeal.Frm

end
-- ==== Proof.Spec.lean ====
/-
  The graph decoder as functions of matrices of extended reals.

  A matrix is a function of a row and a column. Three graph-convolution layers, each "mix the rows by the
  adjacency matrix A, after multiplying by a weight matrix and (in the first two) applying tanh":
      S1 = tanh (Z · W4),   S2 = tanh ((A · S1) · W5),   S3 = (A · S2) · W6,   Ẑ = A · S3,
  and the reconstructed adjacency, the logistic function of the Gram matrix of Ẑ's rows:
      R (p, q) = σ (∑ₖ Ẑ (p, k) · Ẑ (q, k)).
  The logistic function is written in two ways: the quotient 1 / (1 + e^(-x)) and the half-angle form
  (1/2) · (1 + tanh (x / 2)); `Sigmoid.lean` proves them equal on every extended real.
-/
import Idealize.ShloMosaic.PureOps.Ideal
import Idealize.ShloMosaic.Lib.ValueIdx

noncomputable section

open scoped BigOperators

namespace Cert.Igae

open Idealize.ShloMosaic Idealize.ShloMosaic.ValueIdx

/-- A matrix of extended reals, by row and column. -/
abbrev Mat (a b : Nat) : Type := Fin a → Fin b → EReal

/-- The matrix an array of rank 2 holds. -/
def mat {a b : Nat} (x : (⟨2, ![a, b]⟩ : Shape).Idx → EReal) : Mat a b := fun p q => x (ix2 p q)

/-- The array a matrix is. -/
def arr {a b : Nat} (X : Mat a b) : (⟨2, ![a, b]⟩ : Shape).Idx → EReal := fun i => X (i 0) (i 1)

theorem arr_ix2 {a b : Nat} (X : Mat a b) (p : Fin a) (q : Fin b) : arr X (ix2 p q) = X p q := rfl

theorem arr_mat {a b : Nat} (x : (⟨2, ![a, b]⟩ : Shape).Idx → EReal) : arr (mat x) = x :=
  funext fun i => congrArg x (eq_ix2 i).symm

/-- The matrix product. -/
def mm {a k b : Nat} (A : Mat a k) (B : Mat k b) : Mat a b := fun p q => ∑ j : Fin k, A p j * B j q

/-- The first layer's support: tanh of Z · W4. -/
def s1 (Z : Mat 4096 128) (W4 : Mat 128 256) : Mat 4096 256 := fun p q => Ideal.tanh (mm Z W4 p q)

/-- The second layer's support: tanh of (A · S1) · W5. -/
def s2 (A : Mat 4096 4096) (S1 : Mat 4096 256) (W5 : Mat 256 512) : Mat 4096 512 :=
  fun p q => Ideal.tanh (mm (mm A S1) W5 p q)

/-- The third layer's support, with no activation: (A · S2) · W6. -/
def s3 (A : Mat 4096 4096) (S2 : Mat 4096 512) (W6 : Mat 512 512) : Mat 4096 512 := mm (mm A S2) W6

/-- The decoded embedding Ẑ = A · S3. -/
def zhat (Z : Mat 4096 128) (A : Mat 4096 4096) (W4 : Mat 128 256) (W5 : Mat 256 512) (W6 : Mat 512 512) : Mat 4096 512 :=
  mm A (s3 A (s2 A (s1 Z W4) W5) W6)

/-- One half and one, as the binary32 patterns both programs print. -/
def half : EReal := Ideal.ofBits .f32 0x3F000000#32
def one : EReal := Ideal.ofBits .f32 0x3F800000#32

/-- The Gram matrix of the rows. -/
def gram {n d : Nat} (H : Mat n d) : Mat n n := fun p q => ∑ k : Fin d, H p k * H q k

/-- The logistic function as the quotient 1 / (1 + e^(-x)). -/
def sigmQuot (x : EReal) : EReal := Ideal.div one (one + Ideal.exp (-x))

/-- The logistic function in the half-angle form (1/2) · (1 + tanh (x / 2)). -/
def sigmTanh (x : EReal) : EReal := half * (one + Ideal.tanh (half * x))

/-- The reconstructed adjacency, by the quotient form. -/
def reconQuot {n d : Nat} (H : Mat n d) : Mat n n := fun p q => sigmQuot (gram H p q)

/-- The reconstructed adjacency, by the half-angle form. -/
def reconTanh {n d : Nat} (H : Mat n d) : Mat n n := fun p q => sigmTanh (gram H p q)

end Cert.Igae

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibTransposedRhsMatmul.lean ====
/-
  A matrix product whose right operand is contracted on its LAST axis, read at an index at the ideal values.

  For an M × K left operand and an N × K right operand (the right one is the transpose of the matrix a textbook
  product would take), the product into the zero accumulator has, at (i, j), the entry
      ∑_k  lhs (i, k) · rhs (j, k) :
  row i of the left operand against ROW j of the right one. The dimension numbers are the library's
  DotDims.transposedRhs M K N (contract axis 1 of both operands; rows of the left operand, then rows of the right one,
  index the result); a printed record with those six lists equals it by rfl.

  At a result index (i, j) and a contraction position k the left operand is read at (i, k) and the right one at
  (j, k): the free axis of each operand takes its coordinate from the result index, the contracted axis takes the one
  coordinate of the contraction position. The sum over contraction positions is then a sum over k : Fin K.

  Stated for any M, K, N and any operand formats; a change of float format is the identity at the ideal values, so
  operands rounded to a shorter format before the product read the same.
-/
import Idealize.ShloMosaic.PureOps.Ideal.Laws
import Idealize.ShloMosaic.Lib.ValueIdx

noncomputable section

open scoped BigOperators

namespace Idealize.ShloMosaic.TransposedRhsMatmul

open Idealize.ShloMosaic Idealize.ShloMosaic.ValueIdx

variable {M K N : Nat}

/-- The left operand's row coordinate is the result's row coordinate. -/
theorem lhsIdx_free (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction position. -/
theorem lhsIdx_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column coordinate. -/
theorem rhsIdx_free (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction position too. -/
theorem rhsIdx_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The product into the zero accumulator at (i, j): row i of the left operand against row j of the right one. -/
theorem transposedRhsMatmul_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhsIdx_free _ _
      | ⟨1, _⟩ => exact (lhsIdx_contr _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhsIdx_free _ _
      | ⟨1, _⟩ => exact (rhsIdx_contr _ _).trans hk)
  rw [el, er]

end Idealize.ShloMosaic.TransposedRhsMatmul

end
-- ==== Proof.Payloads.lean ====
/-
  Each kernel body's arithmetic, read at one index at the ideal values.

  At the ideal values a change of float format is the identity, a shape cast to the same shape is the identity, and a
  matrix product into the zero accumulator is, entry by entry, the sum of products. So each body's stored value, at
  row p and column q, is the matching entry of the decoder's matrices: a product Z · W, a product (A · S) · W, with or
  without tanh, and for the last body the half-angle logistic of the inner product of two rows.
-/
import proofs.«108085_g73684458930218_cont_9to1c4b_137_7_alg».proof.Proof.Gen.KernelIdeal.Skeleton
import proofs.«108085_g73684458930218_cont_9to1c4b_137_7_alg».proof.Proof.Spec
import proofs.«108085_g73684458930218_cont_9to1c4b_137_7_alg».proof.Proof.LibPlainMatmul
import proofs.«108085_g73684458930218_cont_9to1c4b_137_7_alg».proof.Proof.LibTransposedRhsMatmul
import Idealize.ShloMosaic.Lib.ValueIdx
import Idealize.ShloMosaic.Lib.Pipeline.Value
import Idealize.ShloMosaic.PureOps.Ideal.Laws

noncomputable section

open scoped BigOperators

namespace Cert.Igae.Pay

open Cert.KernelIdeal Cert.KernelIdeal.Gen Cert.Igae Idealize.ShloMosaic Idealize.ShloMosaic.ValueIdx

/-- A plain product into the zero accumulator is the matrix product of the two operands' matrices. -/
theorem plain_apply {M K N : Nat} (φ₁ φ₂ : FTy) (lhs : FVec Ideal ⟨2, ![M, K]⟩ φ₁) (rhs : FVec Ideal ⟨2, ![K, N]⟩ φ₂)
    (p : Fin M) (q : Fin N) :
    matmul (F := Ideal) (DotDims.plain M K N) none lhs rhs (constant ⟨2, ![M, N]⟩ .f32 0x00000000#32) (ix2 p q)
      = mm (mat lhs) (mat rhs) p q :=
  PlainMatmul.plainMatmul_apply none lhs rhs p q

/-- A product against the right operand's rows, into the zero accumulator: the inner product of row p of the left
    operand and row q of the right one. -/
theorem transposed_apply {M K N : Nat} (φ₁ φ₂ : FTy) (lhs : FVec Ideal ⟨2, ![M, K]⟩ φ₁) (rhs : FVec Ideal ⟨2, ![N, K]⟩ φ₂)
    (p : Fin M) (q : Fin N) :
    matmul (F := Ideal) (DotDims.transposedRhs M K N) none lhs rhs (constant ⟨2, ![M, N]⟩ .f32 0x00000000#32) (ix2 p q)
      = ∑ k : Fin K, mat lhs p k * mat rhs q k :=
  TransposedRhsMatmul.transposedRhsMatmul_apply none lhs rhs p q

/-- The first layer's body: tanh of the product of the two operands. -/
theorem pay0 (x0 : Vec Ideal S1024x128 .f32) (x2 : Vec Ideal S128x256 .f32) (p : Fin 1024) (q : Fin 256) :
    k0_pay1 (F := Ideal) x0 x2 (ix2 p q) = Ideal.tanh (mm (mat x0) (mat x2) p q) :=
  congrArg Ideal.tanh (plain_apply (M := 1024) (K := 128) (N := 256) .bf16 .bf16 x0 x2 p q)

/-- The second layer's first stored value: the adjacency block itself. -/
theorem pay1a (x0 : Vec Ideal S512x4096 .f32) (p : Fin 512) (q : Fin 4096) :
    k1_pay1 (F := Ideal) x0 (ix2 p q) = x0 (ix2 p q) := rfl

/-- Two matrix products with the same right factor agree at (p, q) when the left factors agree on row p. -/
theorem mm_congr_left {a k b : Nat} {A A' : Mat a k} (B : Mat k b) (p : Fin a) (q : Fin b)
    (h : ∀ j, A p j = A' p j) : mm A B p q = mm A' B p q :=
  Finset.sum_congr rfl fun j _ => congrArg (· * B j q) (h j)

/-- The second layer's body: tanh of (adjacency block · support) · weight. -/
theorem pay1b (x0 : Vec Ideal S512x4096 .f32) (x3 : Vec Ideal S4096x256 .bf16) (x6 : Vec Ideal S256x512 .f32)
    (p : Fin 512) (q : Fin 512) :
    k1_pay2 (F := Ideal) x0 x3 x6 (ix2 p q) = Ideal.tanh (mm (mm (mat x0) (mat x3)) (mat x6) p q) := by
  unfold k1_pay2 k1_pay1
  simp only [shapeCast_self]
  refine congrArg Ideal.tanh ((plain_apply (M := 512) (K := 256) (N := 512) .bf16 .bf16 _ x6 p q).trans
    (mm_congr_left _ p q fun j => ?_))
  exact plain_apply (M := 512) (K := 4096) (N := 256) .bf16 .bf16 x0 x3 p j

/-- The third layer's body: (adjacency block · support) · weight, with no activation. -/
theorem pay2 (x0 : Vec Ideal S512x4096 .bf16) (x2 : Vec Ideal S4096x512 .bf16) (x5 : Vec Ideal S512x512 .f32)
    (p q : Fin 512) :
    k2_pay1 (F := Ideal) x0 x2 x5 (ix2 p q) = mm (mm (mat x0) (mat x2)) (mat x5) p q := by
  unfold k2_pay1
  simp only [shapeCast_self]
  refine (plain_apply (M := 512) (K := 512) (N := 512) .bf16 .bf16 _ x5 p q).trans
    (mm_congr_left _ p q fun j => ?_)
  exact plain_apply (M := 512) (K := 4096) (N := 512) .bf16 .bf16 x0 x2 p j

/-- The last mixing body's first stored value: adjacency block · support. -/
theorem pay3a (x0 : Vec Ideal S512x4096 .bf16) (x2 : Vec Ideal S4096x512 .bf16) (p q : Fin 512) :
    k3_pay1 (F := Ideal) x0 x2 (ix2 p q) = mm (mat x0) (mat x2) p q := by
  unfold k3_pay1
  simp only [shapeCast_self]
  exact plain_apply (M := 512) (K := 4096) (N := 512) .bf16 .bf16 x0 x2 p q

/-- The last mixing body's second stored value: the same product, in the shorter format. -/
theorem pay3b (x0 : Vec Ideal S512x4096 .bf16) (x2 : Vec Ideal S4096x512 .bf16) (p q : Fin 512) :
    k3_pay2 (F := Ideal) x0 x2 (ix2 p q) = mm (mat x0) (mat x2) p q :=
  pay3a x0 x2 p q

/-- The reconstruction body: the half-angle logistic of the inner product of row p of the left operand and row q of
    the right one. -/
theorem pay4 (x0 x2 : Vec Ideal S1024x512 .bf16) (p q : Fin 1024) :
    k4_pay1 (F := Ideal) x0 x2 (ix2 p q) = sigmTanh (∑ k : Fin 512, mat x0 p k * mat x2 q k) := by
  unfold k4_pay1
  simp only [shapeCast_self]
  exact congrArg sigmTanh (transposed_apply (M := 1024) (K := 512) (N := 1024) .bf16 .bf16 x0 x2 p q)

end Cert.Igae.Pay

end
-- ==== Proof.ValueReg0.lean ====
/-
  The first region's result array after its last grid point.

  The grid has four points; point t stores rows 1024 t … 1024 t + 1023 of the result. The stored panel is tanh of
  (the same rows of Z) · W4, so every block written back is a block of the one matrix tanh (Z · W4); the four blocks
  cover the array, so the array ends holding that matrix.
-/
import proofs.«108085_g73684458930218_cont_9to1c4b_137_7_alg».proof.Proof.FrameReg0
import proofs.«108085_g73684458930218_cont_9to1c4b_137_7_alg».proof.Proof.Payloads
import proofs.«108085_g73684458930218_cont_9to1c4b_137_7_alg».proof.Proof.Spec
import Idealize.ShloMosaic.Lib.Pipeline.Value
import Idealize.ShloMosaic.Lib.ValueIdx

noncomputable section

open scoped BigOperators

namespace Cert.Igae.Val

open Cert.KernelIdeal Cert.KernelIdeal.Gen Cert.KernelIdeal.Frm Cert.Igae
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The zero offsets, however they are spelt. -/
theorem zero_off0 : (![0, 0] : Fin 2 → Nat) = fun _ => 0 := funext fun a => by fin_cases a <;> rfl

example : Pipeline.arrRef spec0 0 = main_arg0 := rfl
example : Pipeline.arrRef spec0 1 = main_arg2 := rfl
example : Pipeline.arrRef spec0 2 = main_v0 := rfl

/-- The block indices over the grid: the row panels of Z and of the result follow the point, W4 is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has four points. -/
theorem N0_eq : cfg0.N = 4 := by decide +kernel

/-- Z's block at point t is rows 1024 t … 1024 t + 1023 of Z. -/
theorem iblk0_0_apply (t : Fin cfg0.N) (y : S1024x128.Idx) (k : S4096x128.Idx)
    (hk0 : (k 0).val = t.val * 1024 + (y 0).val) (hk1 : (k 1).val = (y 1).val) :
    (iblk0 V c 0 t : Vec Ideal S1024x128 .f32) y = (V c main_arg0 : S4096x128.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 1024 + 1 * (y 0).val = (k 0).val; rw [e0, hk0]; omega
  | ⟨1, _⟩ => show win0_0.index t 1 * 128 + 1 * (y 1).val = (k 1).val; rw [e1, hk1]; omega

/-- W4's block at every point is W4. -/
theorem iblk0_1_apply (t : Fin cfg0.N) (y : S128x256.Idx) :
    (iblk0 V c 1 t : Vec Ideal S128x256 .f32) y = (V c main_arg2 : S128x256.Idx → EReal) y := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t 0 * 128 + 1 * (y 0).val = (y 0).val; rw [e2]; omega
  | ⟨1, _⟩ => show win0_1.index t 1 * 256 + 1 * (y 1).val = (y 1).val; rw [e3]; omega

/-- One entry of the body's stored panel: when the left block is rows 1024 n … of Z and the right block is W4, the
    entry at (p, q) of the panel is the entry of tanh (Z · W4) at row 1024 n + p and column q. -/
theorem point0 (x0 : Vec Ideal S1024x128 .f32) (x1 : Vec Ideal S128x256 .f32)
    (a0 : S4096x128.Idx → EReal) (a2 : S128x256.Idx → EReal) (n : Nat)
    (h0 : ∀ (y : S1024x128.Idx) (k : S4096x128.Idx), (k 0).val = n * 1024 + (y 0).val → (k 1).val = (y 1).val → x0 y = a0 k)
    (h1 : ∀ y : S128x256.Idx, x1 y = a2 y)
    (j : S1024x256.Idx) (i : S4096x256.Idx)
    (hi0 : (i 0).val = n * 1024 + (j 0).val) (hi1 : (i 1).val = (j 1).val) :
    k0_pay1 (F := Ideal) x0 x1 j = arr (s1 (mat a0) (mat a2)) i := by
  obtain ⟨p, q, rfl⟩ : ∃ (p : Fin 1024) (q : Fin 256), j = ix2 p q := ⟨j 0, j 1, eq_ix2 j⟩
  obtain ⟨P, Q, rfl⟩ : ∃ (P : Fin 4096) (Q : Fin 256), i = ix2 P Q := ⟨i 0, i 1, eq_ix2 i⟩
  have hP : P.val = n * 1024 + p.val := hi0
  have hQ : Q = q := Fin.ext hi1
  subst hQ
  refine (Pay.pay0 x0 x1 p Q).trans ?_
  show Ideal.tanh (∑ k : Fin 128, mat x0 p k * mat x1 k Q)
    = Ideal.tanh (∑ k : Fin 128, mat a0 P k * mat a2 k Q)
  refine congrArg Ideal.tanh (Finset.sum_congr rfl fun k _ => ?_)
  exact congrArg₂ (· * ·) (h0 (ix2 p k) (ix2 P k) hP rfl) (h1 (ix2 k Q))

/-- What point t writes back is block t of tanh (Z · W4). -/
theorem flushed0_eq (t : Fin cfg0.N) :
    (dat0 V c).flushed 2 t = ((cfg0.win 2).blk t).view.read (Elt Ideal)
      (arr (s1 (mat (V c main_arg0)) (mat (V c main_arg2)))) := by
  show (cfg0.win 2).cut (grid0.coords t) ((dat0 V c).after 2 t) = _
  rw [after0_2]
  unfold out0_2
  rw [View.canon_unit_zero zero_off0]
  simp only [View.ld_unit_zero (S := S1024x128) zero_off0, View.ld_unit_zero (S := S128x256) zero_off0]
  obtain ⟨-, -, -, -, e4, e5⟩ := idx_facts0 t
  funext j
  show k0_pay1 (F := Ideal) (iblk0 V c 0 t) (iblk0 V c 1 t) j
    = arr (s1 (mat (V c main_arg0)) (mat (V c main_arg2))) (((cfg0.win 2).blk t).view.emb j)
  refine point0 _ _ (V c main_arg0) (V c main_arg2) t.val (iblk0_0_apply V c t) (iblk0_1_apply V c t) j _ ?_ ?_
  · show win0_2.index t 0 * 1024 + 1 * (j 0).val = t.val * 1024 + (j 0).val
    rw [e4]; omega
  · show win0_2.index t 1 * 256 + 1 * (j 1).val = (j 1).val
    rw [e5]; omega

/-- An index of the result is in point t's block iff each coordinate is in the block's range on its axis. -/
theorem mem_blk0 (t : Fin cfg0.N) (i : S4096x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- Every entry of the result is in the block of the point its row falls in. -/
theorem cover0 (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  let t : Fin cfg0.N := ⟨(i 0).val / 1024, by rw [N0_eq]; omega⟩
  have ht : t.val = (i 0).val / 1024 := rfl
  obtain ⟨-, -, -, -, e4, e5⟩ := idx_facts0 t
  refine ⟨t, flush0_2 t, ?_⟩
  rw [mem_blk0]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 256 ≤ (i 1).val ∧ (i 1).val < win0_2.index t (1 : Fin 2) * 256 + 256
    rw [e5]; omega

/-- After the last point the result array is tanh (Z · W4). -/
theorem final0 : (dat0 V c).arrAt 2 cfg0.N = arr (s1 (mat (V c main_arg0)) (mat (V c main_arg2))) :=
  (dat0 V c).arrAt_eq_of_cover 2 (arr (s1 (mat (V c main_arg0)) (mat (V c main_arg2))))
    (fun t _ => flushed0_eq V c t) cover0

end Cert.Igae.Val

end
-- ==== Proof.ValueReg1.lean ====
/-
  The second region's two result arrays after its last grid point.

  The grid has eight points; point t stores rows 512 t … 512 t + 511 of each result. The first stored panel is tanh of
  ((the same rows of A) · S1) · W5, a block of the one matrix tanh ((A · S1) · W5); the second is the same rows of A
  itself. In each case the eight blocks cover the array, so the first array ends holding tanh ((A · S1) · W5) and the
  second ends holding A.
-/
import proofs.«108085_g73684458930218_cont_9to1c4b_137_7_alg».proof.Proof.FrameReg1
import proofs.«108085_g73684458930218_cont_9to1c4b_137_7_alg».proof.Proof.Payloads
import proofs.«108085_g73684458930218_cont_9to1c4b_137_7_alg».proof.Proof.Spec
import Idealize.ShloMosaic.Lib.Pipeline.Value
import Idealize.ShloMosaic.Lib.ValueIdx

noncomputable section

open scoped BigOperators

namespace Cert.Igae.Val

open Cert.KernelIdeal Cert.KernelIdeal.Gen Cert.KernelIdeal.Frm Cert.Igae
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The zero offsets, however they are spelt. -/
theorem zero_off1 : (![0, 0] : Fin 2 → Nat) = fun _ => 0 := funext fun a => by fin_cases a <;> rfl

example : Pipeline.arrRef spec1 0 = main_arg1 := rfl
example : Pipeline.arrRef spec1 1 = main_v0 := rfl
example : Pipeline.arrRef spec1 2 = main_arg3 := rfl
example : Pipeline.arrRef spec1 3 = main_v1_0 := rfl
example : Pipeline.arrRef spec1 4 = main_v1_1 := rfl

/-- The block indices over the grid: the row panels of A, of the result and of the copy follow the point; S1 and W5
    are one block each. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The grid has eight points. -/
theorem N1_eq : cfg1.N = 8 := by decide +kernel

/-- A's block at point t is rows 512 t … 512 t + 511 of A. -/
theorem iblk1_0_apply (t : Fin cfg1.N) (y : S512x4096.Idx) (k : S4096x4096.Idx)
    (hk0 : (k 0).val = t.val * 512 + (y 0).val) (hk1 : (k 1).val = (y 1).val) :
    (iblk1 V c 0 t : Vec Ideal S512x4096 .f32) y = (V c main_arg1 : S4096x4096.Idx → EReal) k := by
  obtain ⟨e0, e1, -⟩ := idx_facts1 t
  unfold iblk1
  rw [View.read_apply]
  show V c main_arg1 _ = V c main_arg1 _
  congr 1
  funext a
  apply Fin.ext
  match a with
  | ⟨0, _⟩ => show win1_0.index t 0 * 512 + 1 * (y 0).val = (k 0).val; rw [e0, hk0]; omega
  | ⟨1, _⟩ => show win1_0.index t 1 * 4096 + 1 * (y 1).val = (k 1).val; rw [e1, hk1]; omega

/-- S1's block at every point is S1. -/
theorem iblk1_1_apply (t : Fin cfg1.N) (y : S4096x256.Idx) :
    (iblk1 V c 1 t : Vec Ideal S4096x256 .bf16) y = (V c main_v0 : S4096x256.Idx → EReal) y := by
  obtain ⟨-, -, e2, e3, -⟩ := idx_facts1 t
  unfold iblk1
  rw [View.read_apply]
  show V c main_v0 _ = V c main_v0 _
  congr 1
  funext a
  apply Fin.ext
  match a with
  | ⟨0, _⟩ => show win1_1.index t 0 * 4096 + 1 * (y 0).val = (y 0).val; rw [e2]; omega
  | ⟨1, _⟩ => show win1_1.index t 1 * 256 + 1 * (y 1).val = (y 1).val; rw [e3]; omega

/-- W5's block at every point is W5. -/
theorem iblk1_2_apply (t : Fin cfg1.N) (y : S256x512.Idx) :
    (iblk1 V c 2 t : Vec Ideal S256x512 .f32) y = (V c main_arg3 : S256x512.Idx → EReal) y := by
  obtain ⟨-, -, -, -, e4, e5, -⟩ := idx_facts1 t
  unfold iblk1
  rw [View.read_apply]
  show V c main_arg3 _ = V c main_arg3 _
  congr 1
  funext a
  apply Fin.ext
  match a with
  | ⟨0, _⟩ => show win1_2.index t 0 * 256 + 1 * (y 0).val = (y 0).val; rw [e4]; omega
  | ⟨1, _⟩ => show win1_2.index t 1 * 512 + 1 * (y 1).val = (y 1).val; rw [e5]; omega

/-- One entry of the stored result panel: when the left block is rows 512 n … of A and the other two blocks are S1
    and W5, the entry at (p, q) is the entry of tanh ((A · S1) · W5) at row 512 n + p and column q. -/
theorem point1_3 (x0 : Vec Ideal S512x4096 .f32) (x1 : Vec Ideal S4096x256 .bf16) (x2 : Vec Ideal S256x512 .f32)
    (a1 : S4096x4096.Idx → EReal) (v0 : S4096x256.Idx → EReal) (a3 : S256x512.Idx → EReal) (n : Nat)
    (h0 : ∀ (y : S512x4096.Idx) (k : S4096x4096.Idx), (k 0).val = n * 512 + (y 0).val → (k 1).val = (y 1).val → x0 y = a1 k)
    (h1 : ∀ y : S4096x256.Idx, x1 y = v0 y) (h2 : ∀ y : S256x512.Idx, x2 y = a3 y)
    (j : S512x512.Idx) (i : S4096x512.Idx)
    (hi0 : (i 0).val = n * 512 + (j 0).val) (hi1 : (i 1).val = (j 1).val) :
    k1_pay2 (F := Ideal) x0 x1 x2 j = arr (s2 (mat a1) (mat v0) (mat a3)) i := by
  obtain ⟨p, q, rfl⟩ : ∃ (p : Fin 512) (q : Fin 512), j = ix2 p q := ⟨j 0, j 1, eq_ix2 j⟩
  obtain ⟨P, Q, rfl⟩ : ∃ (P : Fin 4096) (Q : Fin 512), i = ix2 P Q := ⟨i 0, i 1, eq_ix2 i⟩
  have hP : P.val = n * 512 + p.val := hi0
  have hQ : Q = q := Fin.ext hi1
  subst hQ
  refine (Pay.pay1b x0 x1 x2 p Q).trans ?_
  show Ideal.tanh (∑ m : Fin 256, (∑ l : Fin 4096, mat x0 p l * mat x1 l m) * mat x2 m Q)
    = Ideal.tanh (∑ m : Fin 256, (∑ l : Fin 4096, mat a1 P l * mat v0 l m) * mat a3 m Q)
  refine congrArg Ideal.tanh (Finset.sum_congr rfl fun m _ => ?_)
  refine congrArg₂ (· * ·) (Finset.sum_congr rfl fun l _ => ?_) (h2 (ix2 m Q))
  exact congrArg₂ (· * ·) (h0 (ix2 p l) (ix2 P l) hP rfl) (h1 (ix2 l m))

/-- One entry of the stored copy panel: the entry of A at row 512 n + p and the same column. -/
theorem point1_4 (x0 : Vec Ideal S512x4096 .f32) (a1 : S4096x4096.Idx → EReal) (n : Nat)
    (h0 : ∀ (y : S512x4096.Idx) (k : S4096x4096.Idx), (k 0).val = n * 512 + (y 0).val → (k 1).val = (y 1).val → x0 y = a1 k)
    (j : S512x4096.Idx) (i : S4096x4096.Idx)
    (hi0 : (i 0).val = n * 512 + (j 0).val) (hi1 : (i 1).val = (j 1).val) :
    k1_pay1 (F := Ideal) x0 j = a1 i := by
  show x0 j = a1 i
  exact h0 j i hi0 hi1

/-- What point t writes back through window 3 is block t of tanh ((A · S1) · W5). -/
theorem flushed1_3_eq (t : Fin cfg1.N) :
    (dat1 V c).flushed 3 t = ((cfg1.win 3).blk t).view.read (Elt Ideal)
      (arr (s2 (mat (V c main_arg1)) (mat (V c main_v0)) (mat (V c main_arg3)))) := by
  show (cfg1.win 3).cut (grid1.coords t) ((dat1 V c).after 3 t) = _
  rw [after1_3]
  unfold out1_3
  rw [View.canon_unit_zero zero_off1]
  simp only [View.ld_unit_zero (S := S512x4096) zero_off1, View.ld_unit_zero (S := S4096x256) zero_off1,
    View.ld_unit_zero (S := S256x512) zero_off1]
  obtain ⟨-, -, -, -, -, -, e6, e7, -⟩ := idx_facts1 t
  funext j
  show k1_pay2 (F := Ideal) (iblk1 V c 0 t) (iblk1 V c 1 t) (iblk1 V c 2 t) j
    = arr (s2 (mat (V c main_arg1)) (mat (V c main_v0)) (mat (V c main_arg3))) (((cfg1.win 3).blk t).view.emb j)
  refine point1_3 _ _ _ (V c main_arg1) (V c main_v0) (V c main_arg3) t.val
    (iblk1_0_apply V c t) (iblk1_1_apply V c t) (iblk1_2_apply V c t) j _ ?_ ?_
  · show win1_3.index t 0 * 512 + 1 * (j 0).val = t.val * 512 + (j 0).val
    rw [e6]; omega
  · show win1_3.index t 1 * 512 + 1 * (j 1).val = (j 1).val
    rw [e7]; omega

/-- A as an array of the copy's type: at the ideal values the two float formats hold the same numbers. -/
abbrev copyOfA : S4096x4096.Idx → EReal := fun i => V c main_arg1 i

/-- What point t writes back through window 4 is block t of A. -/
theorem flushed1_4_eq (t : Fin cfg1.N) :
    (dat1 V c).flushed 4 t = ((cfg1.win 4).blk t).view.read (Elt Ideal) (copyOfA V c) := by
  show (cfg1.win 4).cut (grid1.coords t) ((dat1 V c).after 4 t) = _
  rw [after1_4]
  unfold out1_4
  rw [View.canon_unit_zero zero_off1]
  simp only [View.ld_unit_zero (S := S512x4096) zero_off1]
  obtain ⟨-, -, -, -, -, -, -, -, e8, e9⟩ := idx_facts1 t
  funext j
  show k1_pay1 (F := Ideal) (iblk1 V c 0 t) j = copyOfA V c (((cfg1.win 4).blk t).view.emb j)
  refine point1_4 _ (V c main_arg1) t.val (iblk1_0_apply V c t) j _ ?_ ?_
  · show win1_4.index t 0 * 512 + 1 * (j 0).val = t.val * 512 + (j 0).val
    rw [e8]; omega
  · show win1_4.index t 1 * 4096 + 1 * (j 1).val = (j 1).val
    rw [e9]; omega

/-- An index of the result is in point t's block iff each coordinate is in the block's range on its axis. -/
theorem mem_blk1_3 (t : Fin cfg1.N) (i : S4096x512.Idx) :
    i ∈ ((cfg1.win 3).blk t).view.set ↔ ∀ a : Fin 2, win1_3.index t a * S512x512.size a ≤ (i a).val
      ∧ (i a).val < win1_3.index t a * S512x512.size a + S512x512.size a := by
  show i ∈ ((View.whole main_v1_0).slice (win1_3.rect t)).set ↔ _
  rw [View.set_slice_whole, Rect.mem_set_unit]
  exact Iff.rfl

theorem mem_blk1_4 (t : Fin cfg1.N) (i : S4096x4096.Idx) :
    i ∈ ((cfg1.win 4).blk t).view.set ↔ ∀ a : Fin 2, win1_4.index t a * S512x4096.size a ≤ (i a).val
      ∧ (i a).val < win1_4.index t a * S512x4096.size a + S512x4096.size a := by
  show i ∈ ((View.whole main_v1_1).slice (win1_4.rect t)).set ↔ _
  rw [View.set_slice_whole, Rect.mem_set_unit]
  exact Iff.rfl

/-- Every entry of the result is in the block of the point its row falls in. -/
theorem covered1_3 (i : S4096x512.Idx) :
    ∃ t : Fin cfg1.N, (cfg1.win 3).flush t = true ∧ i ∈ ((cfg1.win 3).blk t).view.set := by
  have hi0 : (i 0).val < 4096 := (i 0).isLt
  have hi1 : (i 1).val < 512 := (i 1).isLt
  let t : Fin cfg1.N := ⟨(i 0).val / 512, by rw [N1_eq]; omega⟩
  have ht : t.val = (i 0).val / 512 := rfl
  obtain ⟨-, -, -, -, -, -, e6, e7, -⟩ := idx_facts1 t
  refine ⟨t, flush1_3 t, ?_⟩
  rw [mem_blk1_3]
  intro a
  match a with
  | ⟨0, _⟩ =>
    show win1_3.index t (0 : Fin 2) * 512 ≤ (i 0).val ∧ (i 0).val < win1_3.index t (0 : Fin 2) * 512 + 512
    rw [e6, ht]; omega
  | ⟨1, _⟩ =>
    show win1_3.index t (1 : Fin 2) * 512 ≤ (i 1).val ∧ (i 1).val < win1_3.index t (1 : Fin 2) * 512 + 512
    rw [e7]; omega

/-- Every entry of the copy is in the block of the point its row falls in. -/
theorem covered1_4 (i : S4096x4096.Idx) :
    ∃ t : Fin cfg1.N, (cfg1.win 4).flush t = true ∧ i ∈ ((cfg1.win 4).blk t).view.set := by
  have hi0 : (i 0).val < 4096 := (i 0).isLt
  have hi1 : (i 1).val < 4096 := (i 1).isLt
  let t : Fin cfg1.N := ⟨(i 0).val / 512, by rw [N1_eq]; omega⟩
  have ht : t.val = (i 0).val / 512 := rfl
  obtain ⟨-, -, -, -, -, -, -, -, e8, e9⟩ := idx_facts1 t
  refine ⟨t, flush1_4 t, ?_⟩
  rw [mem_blk1_4]
  intro a
  match a with
  | ⟨0, _⟩ =>
    show win1_4.index t (0 : Fin 2) * 512 ≤ (i 0).val ∧ (i 0).val < win1_4.index t (0 : Fin 2) * 512 + 512
    rw [e8, ht]; omega
  | ⟨1, _⟩ =>
    show win1_4.index t (1 : Fin 2) * 4096 ≤ (i 1).val ∧ (i 1).val < win1_4.index t (1 : Fin 2) * 4096 + 4096
    rw [e9]; omega

/-- After the last point the result array is tanh ((A · S1) · W5). -/
theorem final1_3 : (dat1 V c).arrAt 3 cfg1.N
    = arr (s2 (mat (V c main_arg1)) (mat (V c main_v0)) (mat (V c main_arg3))) :=
  (dat1 V c).arrAt_eq_of_cover 3 (arr (s2 (mat (V c main_arg1)) (mat (V c main_v0)) (mat (V c main_arg3))))
    (fun t _ => flushed1_3_eq V c t) covered1_3

/-- After the last point the copy holds A, entry by entry. -/
theorem final1_4 : ∀ i : S4096x4096.Idx, (dat1 V c).arrAt 4 cfg1.N i = V c main_arg1 i := fun i =>
  congrFun ((dat1 V c).arrAt_eq_of_cover 4 (copyOfA V c) (fun t _ => flushed1_4_eq V c t) covered1_4) i

end Cert.Igae.Val

end
-- ==== Proof.ValueReg2.lean ====
/-
  The third region's value: after its last grid point its result array holds (A · S) · W of the three arrays the
  region was entered with.

  A grid point t reads the 512-row panel t of A, the whole of S and the whole of W, and writes the 512-row panel t of
  the result. Entry (p, q) of the panel is the sum over m of (the sum over k of A (512 t + p, k) · S (k, m)) · W (m, q),
  which is entry (512 t + p, q) of (A · S) · W. The eight panels tile the 4096 rows: row r is in panel r / 512.
-/
import proofs.«108085_g73684458930218_cont_9to1c4b_137_7_alg».proof.Proof.FrameReg2
import proofs.«108085_g73684458930218_cont_9to1c4b_137_7_alg».proof.Proof.Payloads
import proofs.«108085_g73684458930218_cont_9to1c4b_137_7_alg».proof.Proof.Spec
import Idealize.ShloMosaic.Lib.Pipeline.Value
import Idealize.ShloMosaic.Lib.ValueIdx

noncomputable section

open scoped BigOperators

namespace Cert.Igae.Val

open Cert.KernelIdeal Cert.KernelIdeal.Gen Cert.KernelIdeal.Frm Cert.Igae
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- The block indices over the grid: the panel windows follow the point, the other two operands stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the result array ends holding. -/
abbrev G2 : S4096x512.Idx → EReal := arr (s3 (mat (V c main_v1_1)) (mat (V c main_v1_0)) (mat (V c main_arg4)))

/-- The body's value at one entry, over any blocks that are the stated parts of three arrays: when the left block's
    row p is row 512 r + p of A and the other two blocks are S and W, entry (p, q) is entry (512 r + p, q) of
    (A · S) · W. -/
theorem point2 (x0 : Vec Ideal S512x4096 .bf16) (x1 : Vec Ideal S4096x512 .bf16) (x2 : Vec Ideal S512x512 .f32)
    (A : S4096x4096.Idx → EReal) (B : S4096x512.Idx → EReal) (C : S512x512.Idx → EReal) (r : Nat)
    (h0 : ∀ (y : S512x4096.Idx) (i : S4096x4096.Idx), (i 0).val = r * 512 + (y 0).val → (i 1).val = (y 1).val → x0 y = A i)
    (h1 : ∀ y : S4096x512.Idx, x1 y = B y) (h2 : ∀ y : S512x512.Idx, x2 y = C y)
    (j : S512x512.Idx) (i : S4096x512.Idx) (hi0 : (i 0).val = r * 512 + (j 0).val) (hi1 : (i 1).val = (j 1).val) :
    k2_pay1 (F := Ideal) x0 x1 x2 j = arr (s3 (mat A) (mat B) (mat C)) i := by
  obtain ⟨p, q, rfl⟩ : ∃ (p : Fin 512) (q : Fin 512), j = ix2 p q := ⟨j 0, j 1, eq_ix2 j⟩
  obtain ⟨P, Q, rfl⟩ : ∃ (P : Fin 4096) (Q : Fin 512), i = ix2 P Q := ⟨i 0, i 1, eq_ix2 i⟩
  have hQ : Q = q := Fin.ext hi1
  subst hQ
  rw [Pay.pay2, arr_ix2]
  show mm (mm (mat x0) (mat x1)) (mat x2) p Q = mm (mm (mat A) (mat B)) (mat C) P Q
  refine Finset.sum_congr rfl fun m _ => ?_
  show ((∑ k : Fin 4096, (x0 (ix2 p k) : EReal) * (x1 (ix2 k m) : EReal)) * (x2 (ix2 m Q) : EReal) : EReal)
    = (∑ k : Fin 4096, A (ix2 P k) * B (ix2 k m)) * C (ix2 m Q)
  rw [h2]
  refine congrArg (· * C (ix2 m Q)) (Finset.sum_congr rfl fun k _ => ?_)
  rw [h0 (ix2 p k) (ix2 P k) hi0 rfl, h1]

/-- The left window's block at point t is rows 512 t … 512 t + 511 of its array. -/
theorem iblk2_0_apply (t : Fin cfg2.N) (y : S512x4096.Idx) (i : S4096x4096.Idx)
    (h0 : (i 0).val = t.val * 512 + (y 0).val) (h1 : (i 1).val = (y 1).val) :
    (iblk2 V c 0 t : Vec Ideal S512x4096 .bf16) y = (V c main_v1_1 : S4096x4096.Idx → EReal) i := by
  obtain ⟨e0, e1, -⟩ := idx_facts2 t
  unfold iblk2
  rw [View.read_apply]
  show V c main_v1_1 _ = V c main_v1_1 _
  congr 1
  funext a
  apply Fin.ext
  match a with
  | ⟨0, _⟩ => show win2_0.index t 0 * 512 + 1 * (y 0).val = (i 0).val; rw [e0, h0]; omega
  | ⟨1, _⟩ => show win2_0.index t 1 * 4096 + 1 * (y 1).val = (i 1).val; rw [e1, h1]; omega

/-- The middle window's block at every point is its whole array. -/
theorem iblk2_1_apply (t : Fin cfg2.N) (y : S4096x512.Idx) :
    (iblk2 V c 1 t : Vec Ideal S4096x512 .bf16) y = (V c main_v1_0 : S4096x512.Idx → EReal) y := by
  obtain ⟨-, -, e0, e1, -⟩ := idx_facts2 t
  unfold iblk2
  rw [View.read_apply]
  show V c main_v1_0 _ = V c main_v1_0 _
  congr 1
  funext a
  apply Fin.ext
  match a with
  | ⟨0, _⟩ => show win2_1.index t 0 * 4096 + 1 * (y 0).val = (y 0).val; rw [e0]; omega
  | ⟨1, _⟩ => show win2_1.index t 1 * 512 + 1 * (y 1).val = (y 1).val; rw [e1]; omega

/-- The weight window's block at every point is its whole array. -/
theorem iblk2_2_apply (t : Fin cfg2.N) (y : S512x512.Idx) :
    (iblk2 V c 2 t : Vec Ideal S512x512 .f32) y = (V c main_arg4 : S512x512.Idx → EReal) y := by
  obtain ⟨-, -, -, -, e0, e1, -⟩ := idx_facts2 t
  unfold iblk2
  rw [View.read_apply]
  show V c main_arg4 _ = V c main_arg4 _
  congr 1
  funext a
  apply Fin.ext
  match a with
  | ⟨0, _⟩ => show win2_2.index t 0 * 512 + 1 * (y 0).val = (y 0).val; rw [e0]; omega
  | ⟨1, _⟩ => show win2_2.index t 1 * 512 + 1 * (y 1).val = (y 1).val; rw [e1]; omega

/-- What point t writes back is block t of (A · S) · W. -/
theorem flushed2_3_eq (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S512x4096) hz2, View.ld_unit_zero (S := S4096x512) hz2,
    View.ld_unit_zero (S := S512x512) hz2]
  obtain ⟨-, -, -, -, -, -, e0, e1⟩ := idx_facts2 t
  funext j
  show k2_pay1 (F := Ideal) (iblk2 V c 0 t) (iblk2 V c 1 t) (iblk2 V c 2 t) j = G2 V c (((cfg2.win 3).blk t).view.emb j)
  refine point2 _ _ _ _ _ _ t.val (iblk2_0_apply V c t) (iblk2_1_apply V c t) (iblk2_2_apply V c t) j _ ?_ ?_
  · show win2_3.index t 0 * 512 + 1 * (j 0).val = t.val * 512 + (j 0).val
    rw [e0]; omega
  · show win2_3.index t 1 * 512 + 1 * (j 1).val = (j 1).val
    rw [e1]; omega

/-- An index of the result array is in point t's block iff each coordinate is in the block's range. -/
theorem mem_blk2_3 (t : Fin cfg2.N) (i : S4096x512.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v2).slice (win2_3.rect t)).set ↔ _
  rw [View.set_slice_whole, Rect.mem_set_unit]
  exact Iff.rfl

/-- Row r of the result array is in the block of point r / 512, and every point writes back. -/
theorem covered2_3 (i : S4096x512.Idx) :
    ∃ t : Fin cfg2.N, (cfg2.win 3).flush t = true ∧ i ∈ ((cfg2.win 3).blk t).view.set := by
  have hi0 : (i 0).val < 4096 := (i 0).isLt
  have hi1 : (i 1).val < 512 := (i 1).isLt
  have hN : cfg2.N = 8 := by decide
  obtain ⟨t, ht⟩ : ∃ t : Fin cfg2.N, t.val = (i 0).val / 512 := ⟨⟨(i 0).val / 512, by rw [hN]; omega⟩, rfl⟩
  obtain ⟨-, -, -, -, -, -, e0, e1⟩ := idx_facts2 t
  refine ⟨t, flush2_3 t, ?_⟩
  rw [mem_blk2_3]
  intro a
  match a with
  | ⟨0, _⟩ =>
    show win2_3.index t 0 * 512 ≤ (i 0).val ∧ (i 0).val < win2_3.index t 0 * 512 + 512
    rw [e0, ht]; omega
  | ⟨1, _⟩ =>
    show win2_3.index t 1 * 512 ≤ (i 1).val ∧ (i 1).val < win2_3.index t 1 * 512 + 512
    rw [e1]; omega

/-- After the region's last point the result array holds (A · S) · W of the arrays the region was entered with. -/
theorem final2 : (dat2 V c).arrAt 3 cfg2.N = arr (s3 (mat (V c main_v1_1)) (mat (V c main_v1_0)) (mat (V c main_arg4))) :=
  (dat2 V c).arrAt_eq_of_cover 3 (G2 V c) (fun t _ => flushed2_3_eq V c t) (covered2_3)

end Cert.Igae.Val

end
-- ==== Proof.ValueReg3.lean ====
/-
  The fourth region's value: after its last grid point each of its two result arrays holds the matrix product of the
  two arrays the region was entered with.

  A grid point t reads the 512-row panel t of the left array and the whole right array, and writes the 512-row panel t
  of each result. Entry (p, q) of the panel is the sum over k of left (512 t + p, k) · right (k, q), which is entry
  (512 t + p, q) of the product. The eight panels tile the 4096 rows: row r is in panel r / 512.
-/
import proofs.«108085_g73684458930218_cont_9to1c4b_137_7_alg».proof.Proof.FrameReg3
import proofs.«108085_g73684458930218_cont_9to1c4b_137_7_alg».proof.Proof.Payloads
import proofs.«108085_g73684458930218_cont_9to1c4b_137_7_alg».proof.Proof.Spec
import Idealize.ShloMosaic.Lib.Pipeline.Value
import Idealize.ShloMosaic.Lib.ValueIdx

noncomputable section

open scoped BigOperators

namespace Cert.Igae.Val

open Cert.KernelIdeal Cert.KernelIdeal.Gen Cert.KernelIdeal.Frm Cert.Igae
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

theorem hz3 : (![0, 0] : Fin 2 → Nat) = fun _ => 0 := funext fun a => by fin_cases a <;> rfl

/-- The block indices over the grid: the panel windows follow the point, the right operand stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The product both result arrays end holding. -/
abbrev G3 : S4096x512.Idx → EReal := arr (mm (mat (V c main_v1_1)) (mat (V c main_v2)))

/-- The body's product at one entry, over any blocks that are the stated parts of two arrays: when the left block's
    row p is row P p of A and the right block is B, entry (p, q) of the block product is entry (P p, q) of A · B. -/
theorem point3 (x0 : Vec Ideal S512x4096 .bf16) (x1 : Vec Ideal S4096x512 .bf16)
    (A : S4096x4096.Idx → EReal) (B : S4096x512.Idx → EReal) (r : Nat)
    (h0 : ∀ (y : S512x4096.Idx) (i : S4096x4096.Idx), (i 0).val = r * 512 + (y 0).val → (i 1).val = (y 1).val → x0 y = A i)
    (h1 : ∀ y : S4096x512.Idx, x1 y = B y)
    (j : S512x512.Idx) (i : S4096x512.Idx) (hi0 : (i 0).val = r * 512 + (j 0).val) (hi1 : (i 1).val = (j 1).val) :
    k3_pay1 (F := Ideal) x0 x1 j = arr (mm (mat A) (mat B)) i := by
  obtain ⟨p, q, rfl⟩ : ∃ (p : Fin 512) (q : Fin 512), j = ix2 p q := ⟨j 0, j 1, eq_ix2 j⟩
  obtain ⟨P, Q, rfl⟩ : ∃ (P : Fin 4096) (Q : Fin 512), i = ix2 P Q := ⟨i 0, i 1, eq_ix2 i⟩
  have hQ : Q = q := Fin.ext hi1
  subst hQ
  rw [Pay.pay3a, arr_ix2]
  refine Finset.sum_congr rfl fun k _ => ?_
  show x0 (ix2 p k) * x1 (ix2 k Q) = A (ix2 P k) * B (ix2 k Q)
  rw [h0 (ix2 p k) (ix2 P k) hi0 rfl, h1]

/-- The left window's block at point t is rows 512 t … 512 t + 511 of its array. -/
theorem iblk3_0_apply (t : Fin cfg3.N) (y : S512x4096.Idx) (i : S4096x4096.Idx)
    (h0 : (i 0).val = t.val * 512 + (y 0).val) (h1 : (i 1).val = (y 1).val) :
    (iblk3 V c 0 t : Vec Ideal S512x4096 .bf16) y = (V c main_v1_1 : S4096x4096.Idx → EReal) i := by
  obtain ⟨e0, e1, -⟩ := idx_facts3 t
  unfold iblk3
  rw [View.read_apply]
  show V c main_v1_1 _ = V c main_v1_1 _
  congr 1
  funext a
  apply Fin.ext
  match a with
  | ⟨0, _⟩ => show win3_0.index t 0 * 512 + 1 * (y 0).val = (i 0).val; rw [e0, h0]; omega
  | ⟨1, _⟩ => show win3_0.index t 1 * 4096 + 1 * (y 1).val = (i 1).val; rw [e1, h1]; omega

/-- The right window's block at every point is its whole array. -/
theorem iblk3_1_apply (t : Fin cfg3.N) (y : S4096x512.Idx) :
    (iblk3 V c 1 t : Vec Ideal S4096x512 .bf16) y = (V c main_v2 : S4096x512.Idx → EReal) y := by
  obtain ⟨-, -, e0, e1, -⟩ := idx_facts3 t
  unfold iblk3
  rw [View.read_apply]
  show V c main_v2 _ = V c main_v2 _
  congr 1
  funext a
  apply Fin.ext
  match a with
  | ⟨0, _⟩ => show win3_1.index t 0 * 4096 + 1 * (y 0).val = (y 0).val; rw [e0]; omega
  | ⟨1, _⟩ => show win3_1.index t 1 * 512 + 1 * (y 1).val = (y 1).val; rw [e1]; omega

/-- What point t writes back from the first result window is block t of the product. -/
theorem flushed3_2_eq (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero hz3]
  simp only [View.ld_unit_zero (S := S512x4096) hz3, View.ld_unit_zero (S := S4096x512) hz3]
  obtain ⟨-, -, -, -, e0, e1, -⟩ := idx_facts3 t
  funext j
  show k3_pay1 (F := Ideal) (iblk3 V c 0 t) (iblk3 V c 1 t) j = G3 V c (((cfg3.win 2).blk t).view.emb j)
  refine point3 _ _ _ _ t.val (iblk3_0_apply V c t) (iblk3_1_apply V c t) j _ ?_ ?_
  · show win3_2.index t 0 * 512 + 1 * (j 0).val = t.val * 512 + (j 0).val
    rw [e0]; omega
  · show win3_2.index t 1 * 512 + 1 * (j 1).val = (j 1).val
    rw [e1]; omega

/-- The second result window's payload is the first one's, in the shorter format: the same value. -/
theorem point3b (x0 : Vec Ideal S512x4096 .bf16) (x1 : Vec Ideal S4096x512 .bf16)
    (A : S4096x4096.Idx → EReal) (B : S4096x512.Idx → EReal) (r : Nat)
    (h0 : ∀ (y : S512x4096.Idx) (i : S4096x4096.Idx), (i 0).val = r * 512 + (y 0).val → (i 1).val = (y 1).val → x0 y = A i)
    (h1 : ∀ y : S4096x512.Idx, x1 y = B y)
    (j : S512x512.Idx) (i : S4096x512.Idx) (hi0 : (i 0).val = r * 512 + (j 0).val) (hi1 : (i 1).val = (j 1).val) :
    k3_pay2 (F := Ideal) x0 x1 j = arr (mm (mat A) (mat B)) i :=
  point3 x0 x1 A B r h0 h1 j i hi0 hi1

/-- What point t writes back from the second result window is block t of the product. -/
theorem flushed3_3_eq (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz3]
  simp only [View.ld_unit_zero (S := S512x4096) hz3, View.ld_unit_zero (S := S4096x512) hz3]
  obtain ⟨-, -, -, -, -, -, e0, e1⟩ := idx_facts3 t
  funext j
  show k3_pay2 (F := Ideal) (iblk3 V c 0 t) (iblk3 V c 1 t) j = G3 V c (((cfg3.win 3).blk t).view.emb j)
  refine point3b _ _ _ _ t.val (iblk3_0_apply V c t) (iblk3_1_apply V c t) j _ ?_ ?_
  · show win3_3.index t 0 * 512 + 1 * (j 0).val = t.val * 512 + (j 0).val
    rw [e0]; omega
  · show win3_3.index t 1 * 512 + 1 * (j 1).val = (j 1).val
    rw [e1]; omega

/-- An index of the first result array is in point t's block iff each coordinate is in the block's range. -/
theorem mem_blk3_2 (t : Fin cfg3.N) (i : S4096x512.Idx) :
    i ∈ ((cfg3.win 2).blk t).view.set ↔ ∀ a : Fin 2, win3_2.index t a * S512x512.size a ≤ (i a).val ∧ (i a).val < win3_2.index t a * S512x512.size a + S512x512.size a := by
  show i ∈ ((View.whole main_v3_0).slice (win3_2.rect t)).set ↔ _
  rw [View.set_slice_whole, Rect.mem_set_unit]
  exact Iff.rfl

/-- The same for the second result array. -/
theorem mem_blk3_3 (t : Fin cfg3.N) (i : S4096x512.Idx) :
    i ∈ ((cfg3.win 3).blk t).view.set ↔ ∀ a : Fin 2, win3_3.index t a * S512x512.size a ≤ (i a).val ∧ (i a).val < win3_3.index t a * S512x512.size a + S512x512.size a := by
  show i ∈ ((View.whole main_v3_1).slice (win3_3.rect t)).set ↔ _
  rw [View.set_slice_whole, Rect.mem_set_unit]
  exact Iff.rfl

/-- Row r of the first result array is in the block of point r / 512, and every point writes back. -/
theorem covered3_2 (i : S4096x512.Idx) :
    ∃ t : Fin cfg3.N, (cfg3.win 2).flush t = true ∧ i ∈ ((cfg3.win 2).blk t).view.set := by
  have hi0 : (i 0).val < 4096 := (i 0).isLt
  have hi1 : (i 1).val < 512 := (i 1).isLt
  have hN : cfg3.N = 8 := by decide
  obtain ⟨t, ht⟩ : ∃ t : Fin cfg3.N, t.val = (i 0).val / 512 := ⟨⟨(i 0).val / 512, by rw [hN]; omega⟩, rfl⟩
  obtain ⟨-, -, -, -, e0, e1, -⟩ := idx_facts3 t
  refine ⟨t, flush3_2 t, ?_⟩
  rw [mem_blk3_2]
  intro a
  match a with
  | ⟨0, _⟩ =>
    show win3_2.index t 0 * 512 ≤ (i 0).val ∧ (i 0).val < win3_2.index t 0 * 512 + 512
    rw [e0, ht]; omega
  | ⟨1, _⟩ =>
    show win3_2.index t 1 * 512 ≤ (i 1).val ∧ (i 1).val < win3_2.index t 1 * 512 + 512
    rw [e1]; omega

/-- The same for the second result array. -/
theorem covered3_3 (i : S4096x512.Idx) :
    ∃ t : Fin cfg3.N, (cfg3.win 3).flush t = true ∧ i ∈ ((cfg3.win 3).blk t).view.set := by
  have hi0 : (i 0).val < 4096 := (i 0).isLt
  have hi1 : (i 1).val < 512 := (i 1).isLt
  have hN : cfg3.N = 8 := by decide
  obtain ⟨t, ht⟩ : ∃ t : Fin cfg3.N, t.val = (i 0).val / 512 := ⟨⟨(i 0).val / 512, by rw [hN]; omega⟩, rfl⟩
  obtain ⟨-, -, -, -, -, -, e0, e1⟩ := idx_facts3 t
  refine ⟨t, flush3_3 t, ?_⟩
  rw [mem_blk3_3]
  intro a
  match a with
  | ⟨0, _⟩ =>
    show win3_3.index t 0 * 512 ≤ (i 0).val ∧ (i 0).val < win3_3.index t 0 * 512 + 512
    rw [e0, ht]; omega
  | ⟨1, _⟩ =>
    show win3_3.index t 1 * 512 ≤ (i 1).val ∧ (i 1).val < win3_3.index t 1 * 512 + 512
    rw [e1]; omega

/-- After the region's last point the first result array holds the product of the two arrays it was entered with. -/
theorem final3_2 : (dat3 V c).arrAt 2 cfg3.N = arr (mm (mat (V c main_v1_1)) (mat (V c main_v2))) :=
  (dat3 V c).arrAt_eq_of_cover 2 (G3 V c) (fun t _ => flushed3_2_eq V c t) (covered3_2)

/-- And so does the second. -/
theorem final3_3 : (dat3 V c).arrAt 3 cfg3.N = arr (mm (mat (V c main_v1_1)) (mat (V c main_v2))) :=
  (dat3 V c).arrAt_eq_of_cover 3 (G3 V c) (fun t _ => flushed3_3_eq V c t) (covered3_3)

end Cert.Igae.Val

end
-- ==== Proof.ValueReg4.lean ====
/-
  The last region's result array after its last grid point.

  The grid is 4 × 4; point t has coordinates (t / 4, t % 4) and stores the 1024 × 1024 tile of the result at block row
  t / 4 and block column t % 4. The stored tile's entry at (p, q) is the half-angle logistic function of the inner
  product of row p of one 1024-row panel of Ẑ and row q of another; the two panels are rows 1024 (t / 4) … and rows
  1024 (t % 4) … of the same array, so the tile is a block of the logistic function of the Gram matrix of Ẑ's rows. The
  sixteen tiles cover the array, so the array ends holding that matrix.
-/
import proofs.«108085_g73684458930218_cont_9to1c4b_137_7_alg».proof.Proof.FrameReg4
import proofs.«108085_g73684458930218_cont_9to1c4b_137_7_alg».proof.Proof.Payloads
import proofs.«108085_g73684458930218_cont_9to1c4b_137_7_alg».proof.Proof.Spec
import Idealize.ShloMosaic.Lib.Pipeline.Value
import Idealize.ShloMosaic.Lib.ValueIdx

noncomputable section

open scoped BigOperators

namespace Cert.Igae.Val

open Cert.KernelIdeal Cert.KernelIdeal.Gen Cert.KernelIdeal.Frm Cert.Igae
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-- The zero offsets, however they are spelt. -/
theorem zero_off4 : (![0, 0] : Fin 2 → Nat) = fun _ => 0 := funext fun a => by fin_cases a <;> rfl

example : Pipeline.arrRef spec4 0 = main_v3_1 := rfl
example : Pipeline.arrRef spec4 1 = main_v3_1 := rfl
example : Pipeline.arrRef spec4 2 = main_v4 := rfl

/-- The block indices over the grid: the first panel follows the point's first coordinate, the second panel its
    second coordinate, the result's tile both. -/
theorem idx_facts4 : ∀ t : Fin cfg4.N, win4_0.index t (0 : Fin 2) = t.val / 4 ∧ win4_0.index t (1 : Fin 2) = 0
    ∧ win4_1.index t (0 : Fin 2) = t.val % 4 ∧ win4_1.index t (1 : Fin 2) = 0
    ∧ win4_2.index t (0 : Fin 2) = t.val / 4 ∧ win4_2.index t (1 : Fin 2) = t.val % 4 :=
  (by decide +kernel : ∀ t : Fin grid4.N, _)

/-- The grid has sixteen points. -/
theorem N4_eq : cfg4.N = 16 := by decide +kernel

/-- The first panel at point t is rows 1024 (t / 4) … of Ẑ. -/
theorem iblk4_0_apply (t : Fin cfg4.N) (y : S1024x512.Idx) (k : S4096x512.Idx)
    (hk0 : (k 0).val = (t.val / 4) * 1024 + (y 0).val) (hk1 : (k 1).val = (y 1).val) :
    (iblk4 V c 0 t : Vec Ideal S1024x512 .bf16) y = (V c main_v3_1 : S4096x512.Idx → EReal) k := by
  obtain ⟨e0, e1, -⟩ := idx_facts4 t
  unfold iblk4
  rw [View.read_apply]
  show V c main_v3_1 _ = V c main_v3_1 _
  congr 1
  funext a
  apply Fin.ext
  match a with
  | ⟨0, _⟩ => show win4_0.index t 0 * 1024 + 1 * (y 0).val = (k 0).val; rw [e0, hk0]; omega
  | ⟨1, _⟩ => show win4_0.index t 1 * 512 + 1 * (y 1).val = (k 1).val; rw [e1, hk1]; omega

/-- The second panel at point t is rows 1024 (t % 4) … of Ẑ. -/
theorem iblk4_1_apply (t : Fin cfg4.N) (y : S1024x512.Idx) (k : S4096x512.Idx)
    (hk0 : (k 0).val = (t.val % 4) * 1024 + (y 0).val) (hk1 : (k 1).val = (y 1).val) :
    (iblk4 V c 1 t : Vec Ideal S1024x512 .bf16) y = (V c main_v3_1 : S4096x512.Idx → EReal) k := by
  obtain ⟨-, -, e2, e3, -⟩ := idx_facts4 t
  unfold iblk4
  rw [View.read_apply]
  show V c main_v3_1 _ = V c main_v3_1 _
  congr 1
  funext a
  apply Fin.ext
  match a with
  | ⟨0, _⟩ => show win4_1.index t 0 * 1024 + 1 * (y 0).val = (k 0).val; rw [e2, hk0]; omega
  | ⟨1, _⟩ => show win4_1.index t 1 * 512 + 1 * (y 1).val = (k 1).val; rw [e3, hk1]; omega

/-- One entry of the stored tile: when the two blocks are rows 1024 n … and rows 1024 m … of one array H, the entry at
    (p, q) is the half-angle logistic function of the inner product of rows 1024 n + p and 1024 m + q of H. -/
theorem point4 (x0 x1 : Vec Ideal S1024x512 .bf16) (h : S4096x512.Idx → EReal) (n m : Nat)
    (h0 : ∀ (y : S1024x512.Idx) (k : S4096x512.Idx), (k 0).val = n * 1024 + (y 0).val → (k 1).val = (y 1).val → x0 y = h k)
    (h1 : ∀ (y : S1024x512.Idx) (k : S4096x512.Idx), (k 0).val = m * 1024 + (y 0).val → (k 1).val = (y 1).val → x1 y = h k)
    (j : S1024x1024.Idx) (i : S4096x4096.Idx)
    (hi0 : (i 0).val = n * 1024 + (j 0).val) (hi1 : (i 1).val = m * 1024 + (j 1).val) :
    k4_pay1 (F := Ideal) x0 x1 j = arr (reconTanh (mat h)) i := by
  obtain ⟨p, q, rfl⟩ : ∃ (p : Fin 1024) (q : Fin 1024), j = ix2 p q := ⟨j 0, j 1, eq_ix2 j⟩
  obtain ⟨P, Q, rfl⟩ : ∃ (P : Fin 4096) (Q : Fin 4096), i = ix2 P Q := ⟨i 0, i 1, eq_ix2 i⟩
  have hP : P.val = n * 1024 + p.val := hi0
  have hQ : Q.val = m * 1024 + q.val := hi1
  refine (Pay.pay4 x0 x1 p q).trans ?_
  show sigmTanh (∑ k : Fin 512, mat x0 p k * mat x1 q k) = sigmTanh (∑ k : Fin 512, mat h P k * mat h Q k)
  refine congrArg sigmTanh (Finset.sum_congr rfl fun k _ => ?_)
  exact congrArg₂ (· * ·) (h0 (ix2 p k) (ix2 P k) hP rfl) (h1 (ix2 q k) (ix2 Q k) hQ rfl)

/-- What point t writes back is its tile of the logistic function of the Gram matrix of Ẑ's rows. -/
theorem flushed4_eq (t : Fin cfg4.N) :
    (dat4 V c).flushed 2 t = ((cfg4.win 2).blk t).view.read (Elt Ideal)
      (arr (reconTanh (mat (V c main_v3_1)))) := by
  show (cfg4.win 2).cut (grid4.coords t) ((dat4 V c).after 2 t) = _
  rw [after4_2]
  unfold out4_2
  rw [View.canon_unit_zero zero_off4]
  simp only [View.ld_unit_zero (S := S1024x512) zero_off4]
  obtain ⟨-, -, -, -, e4, e5⟩ := idx_facts4 t
  funext j
  show k4_pay1 (F := Ideal) (iblk4 V c 0 t) (iblk4 V c 1 t) j
    = arr (reconTanh (mat (V c main_v3_1))) (((cfg4.win 2).blk t).view.emb j)
  refine point4 _ _ (V c main_v3_1) (t.val / 4) (t.val % 4) (iblk4_0_apply V c t) (iblk4_1_apply V c t) j _ ?_ ?_
  · show win4_2.index t 0 * 1024 + 1 * (j 0).val = (t.val / 4) * 1024 + (j 0).val
    rw [e4]; omega
  · show win4_2.index t 1 * 1024 + 1 * (j 1).val = (t.val % 4) * 1024 + (j 1).val
    rw [e5]; omega

/-- An index of the result is in point t's tile iff each coordinate is in the tile's range on its axis. -/
theorem mem_blk4 (t : Fin cfg4.N) (i : S4096x4096.Idx) :
    i ∈ ((cfg4.win 2).blk t).view.set ↔ ∀ a : Fin 2, win4_2.index t a * S1024x1024.size a ≤ (i a).val
      ∧ (i a).val < win4_2.index t a * S1024x1024.size a + S1024x1024.size a := by
  show i ∈ ((View.whole main_v4).slice (win4_2.rect t)).set ↔ _
  rw [View.set_slice_whole, Rect.mem_set_unit]
  exact Iff.rfl

/-- Every entry of the result is in the tile of the point whose coordinates are the entry's block row and block
    column. -/
theorem covered4 (i : S4096x4096.Idx) :
    ∃ t : Fin cfg4.N, (cfg4.win 2).flush t = true ∧ i ∈ ((cfg4.win 2).blk t).view.set := by
  have hi0 : (i 0).val < 4096 := (i 0).isLt
  have hi1 : (i 1).val < 4096 := (i 1).isLt
  let t : Fin cfg4.N := ⟨4 * ((i 0).val / 1024) + (i 1).val / 1024, by rw [N4_eq]; omega⟩
  have ht : t.val = 4 * ((i 0).val / 1024) + (i 1).val / 1024 := rfl
  obtain ⟨-, -, -, -, e4, e5⟩ := idx_facts4 t
  refine ⟨t, flush4_2 t, ?_⟩
  rw [mem_blk4]
  intro a
  match a with
  | ⟨0, _⟩ =>
    show win4_2.index t (0 : Fin 2) * 1024 ≤ (i 0).val ∧ (i 0).val < win4_2.index t (0 : Fin 2) * 1024 + 1024
    rw [e4, ht]; omega
  | ⟨1, _⟩ =>
    show win4_2.index t (1 : Fin 2) * 1024 ≤ (i 1).val ∧ (i 1).val < win4_2.index t (1 : Fin 2) * 1024 + 1024
    rw [e5, ht]; omega

/-- After the last point the result array is the logistic function, in the half-angle form, of the Gram matrix of Ẑ's
    rows. -/
theorem final4 : (dat4 V c).arrAt 2 cfg4.N = arr (reconTanh (mat (V c main_v3_1))) :=
  (dat4 V c).arrAt_eq_of_cover 2 (arr (reconTanh (mat (V c main_v3_1))))
    (fun t _ => flushed4_eq V c t) covered4

end Cert.Igae.Val

end
-- ==== Proof.Sigmoid.lean ====
/-
  The logistic function, written two ways, is one function of the extended reals.

  The quotient form is 1 / (1 + e^(-x)); the half-angle form is (1/2) · (1 + tanh (x / 2)). On a real x,
  with a = e^(x/2) and b = e^(-x/2) (so a · b = 1 and e^(-x) = b · b),
      (1/2) · (1 + (a - b) / (a + b)) = a / (a + b) = 1 / (1 + b · b).
  At -∞ both forms give 0 (tanh is -1 there, and e^(+∞) = +∞ whose reciprocal is 0); at +∞ both give 1
  (tanh is 1 there, and e^(-∞) = 0).
-/
import proofs.«108085_g73684458930218_cont_9to1c4b_137_7_alg».proof.Proof.Spec

noncomputable section

open scoped BigOperators

namespace Cert.Igae

open Idealize.ShloMosaic

/-- The binary32 pattern 0x3F000000 denotes one half. -/
theorem half_eq : half = ((1 / 2 : ℝ) : EReal) := by
  unfold half
  simp [Ideal.ofBits, Ideal.ieee, -EReal.coe_mul]; norm_num

/-- The binary32 pattern 0x3F800000 denotes one. -/
theorem one_eq : one = 1 := by
  unfold one
  simp [Ideal.ofBits, Ideal.ieee, -EReal.coe_mul]; norm_num

/-- The algebra behind the half-angle identity: for positive a, b with a · b = 1,
    (1/2) · (1 + ((a - b)/2) / ((a + b)/2)) = 1 / (1 + b · b). -/
theorem halfAngle_aux (a b : ℝ) (ha : 0 < a) (hb : 0 < b) (hab : a * b = 1) :
    (1 / 2 : ℝ) * (1 + ((a - b) / 2) / ((a + b) / 2)) = (1 + b * b)⁻¹ := by
  have h1 : a + b ≠ 0 := by positivity
  have h2 : 1 + b * b ≠ 0 := by positivity
  have key : (1 / 2 : ℝ) * (1 + ((a - b) / 2) / ((a + b) / 2)) = a / (a + b) := by
    field_simp
    ring
  rw [key]
  refine eq_inv_of_mul_eq_one_left ?_
  rw [div_mul_eq_mul_div, div_eq_one_iff_eq h1]
  linear_combination b * hab

/-- The half-angle identity on the reals. -/
theorem real_sigm (r : ℝ) : (1 / 2 : ℝ) * (1 + Real.tanh (1 / 2 * r)) = (1 + Real.exp (-r))⁻¹ := by
  have h : Real.exp (-r) = Real.exp (-(1 / 2 * r)) * Real.exp (-(1 / 2 * r)) := by
    rw [← Real.exp_add]; congr 1; ring
  have hab : Real.exp (1 / 2 * r) * Real.exp (-(1 / 2 * r)) = 1 := by
    rw [← Real.exp_add, add_neg_cancel, Real.exp_zero]
  rw [Real.tanh_eq_sinh_div_cosh, Real.sinh_eq, Real.cosh_eq, h]
  exact halfAngle_aux _ _ (Real.exp_pos _) (Real.exp_pos _) hab

/-- The quotient form is the library's logistic function. -/
theorem sigmQuot_eq_logistic (x : EReal) : sigmQuot x = Ideal.logistic x := by
  unfold sigmQuot Ideal.logistic
  rw [one_eq]

/-- The two forms of the logistic function agree on every extended real. -/
theorem sigmTanh_eq_sigmQuot (x : EReal) : sigmTanh x = sigmQuot x := by
  rw [sigmQuot_eq_logistic]
  unfold sigmTanh
  rw [half_eq, one_eq]
  induction x using EReal.rec with
  | bot =>
    rw [EReal.coe_mul_bot_of_pos (by norm_num : (0 : ℝ) < 1 / 2), Ideal.tanh_bot, Ideal.logistic_bot]
    have h0 : (1 : EReal) + -1 = 0 := by
      rw [← EReal.coe_one, ← EReal.coe_neg, ← EReal.coe_add]; norm_num
    rw [h0, mul_zero]
  | coe r =>
    rw [← EReal.coe_mul, Ideal.tanh_coe, ← EReal.coe_one, ← EReal.coe_add, ← EReal.coe_mul, Ideal.logistic_coe]
    exact congrArg _ (real_sigm r)
  | top =>
    rw [EReal.coe_mul_top_of_pos (by norm_num : (0 : ℝ) < 1 / 2), Ideal.tanh_top, Ideal.logistic_top]
    rw [← EReal.coe_one, ← EReal.coe_add, ← EReal.coe_mul]; norm_num

/-- The reconstructed adjacency is the same matrix in either form. -/
theorem reconTanh_eq_reconQuot {n d : Nat} (H : Mat n d) : reconTanh H = reconQuot H :=
  funext fun p => funext fun q => sigmTanh_eq_sigmQuot (gram H p q)

end Cert.Igae

end
-- ==== Proof.KernelValue.lean ====
/-
  The kernel's two results as functions of its five argument arrays.

  The buffers' contents are folded through the five regions (`W0` … `W5`); each region's result array, after its last
  grid point, is one function of the arrays the region was entered with (the five `final` lemmas). Reading the fold
  back from the end to the launch memory, with Z, A, W4, W5, W6 the matrices the argument arrays hold:
      after region 0 the first support is   S1 = tanh (Z · W4);
      after region 1 the second support is  S2 = tanh ((A · S1) · W5), and a copy of A stands beside it;
      after region 2 the third support is   S3 = (A · S2) · W6;
      after region 3 both of its results are Ẑ = A · S3;
      after region 4 the reconstructed adjacency is the logistic function of Ẑ · Ẑᵀ, in its half-angle form,
  which is the quotient form on every extended real.
-/
import proofs.«108085_g73684458930218_cont_9to1c4b_137_7_alg».proof.Proof.FrameRun
import proofs.«108085_g73684458930218_cont_9to1c4b_137_7_alg».proof.Proof.ValueReg0
import proofs.«108085_g73684458930218_cont_9to1c4b_137_7_alg».proof.Proof.ValueReg1
import proofs.«108085_g73684458930218_cont_9to1c4b_137_7_alg».proof.Proof.ValueReg2
import proofs.«108085_g73684458930218_cont_9to1c4b_137_7_alg».proof.Proof.ValueReg3
import proofs.«108085_g73684458930218_cont_9to1c4b_137_7_alg».proof.Proof.ValueReg4
import proofs.«108085_g73684458930218_cont_9to1c4b_137_7_alg».proof.Proof.Sigmoid

noncomputable section

namespace Cert.Igae.Ker

open Cert.KernelIdeal Cert.KernelIdeal.Gen Cert.KernelIdeal.Frm Cert.Igae Cert.Igae.Val
open Idealize.ShloMosaic Idealize.ShloMosaic.TcCoe Idealize.ShloMosaic.ValueIdx Idealize.SL.Sem

variable (m : (ℓ : Loc nD τ sig) → Buf (Elt Ideal) ℓ) (ρ : Dev nD → PrngReg)

theorem mat_arr {a b : Nat} (X : Mat a b) : mat (arr X) = X := rfl

/-- The matrices the argument arrays hold at launch, on core `c`. -/
abbrev mZ (c : Dev nD) : Mat 4096 128 := mat (m ((c : Thread nD τ).loc main_arg0))
abbrev mA (c : Dev nD) : Mat 4096 4096 := mat (m ((c : Thread nD τ).loc main_arg1))
abbrev mW4 (c : Dev nD) : Mat 128 256 := mat (m ((c : Thread nD τ).loc main_arg2))
abbrev mW5 (c : Dev nD) : Mat 256 512 := mat (m ((c : Thread nD τ).loc main_arg3))
abbrev mW6 (c : Dev nD) : Mat 512 512 := mat (m ((c : Thread nD τ).loc main_arg4))

/-! ## Region 0 is entered with the launch memory -/

theorem V0_arg0 (c : Dev nD) : V0 m ρ c main_arg0 = m ((c : Thread nD τ).loc main_arg0) := rfl
theorem V0_arg2 (c : Dev nD) : V0 m ρ c main_arg2 = m ((c : Thread nD τ).loc main_arg2) := rfl

/-! ## Region 1 is entered with A, W5 as launched and S1 -/

theorem V1_arg1 (c : Dev nD) : V1 m ρ c main_arg1 = m ((c : Thread nD τ).loc main_arg1) :=
  W1_of_ne m ρ c main_arg1 (by decide)
theorem V1_arg3 (c : Dev nD) : V1 m ρ c main_arg3 = m ((c : Thread nD τ).loc main_arg3) :=
  W1_of_ne m ρ c main_arg3 (by decide)
theorem V1_v0 (c : Dev nD) : mat (V1 m ρ c main_v0) = s1 (mZ m c) (mW4 m c) := by
  have h : V1 m ρ c main_v0 = arr (s1 (mat (V0 m ρ c main_arg0)) (mat (V0 m ρ c main_arg2))) :=
    (W1_arr m ρ c 2).trans (final0 (V0 m ρ) c)
  rw [h, mat_arr]

/-! ## Region 2 is entered with the copy of A, S2 and W6 as launched -/

theorem V2_v1_1 (c : Dev nD) : mat (V2 m ρ c main_v1_1) = mA m c := by
  funext p q
  have h : V2 m ρ c main_v1_1 = (dat1 (V1 m ρ) c).arrAt 4 cfg1.N := W2_arr m ρ c 4
  show V2 m ρ c main_v1_1 (ix2 p q) = m ((c : Thread nD τ).loc main_arg1) (ix2 p q)
  rw [h, final1_4 (V1 m ρ) c (ix2 p q), V1_arg1]
theorem V2_v1_0 (c : Dev nD) : mat (V2 m ρ c main_v1_0) = s2 (mA m c) (s1 (mZ m c) (mW4 m c)) (mW5 m c) := by
  have h : V2 m ρ c main_v1_0 = arr (s2 (mat (V1 m ρ c main_arg1)) (mat (V1 m ρ c main_v0)) (mat (V1 m ρ c main_arg3))) :=
    (W2_arr m ρ c 3).trans (final1_3 (V1 m ρ) c)
  rw [h, mat_arr, V1_v0, V1_arg1, V1_arg3]
theorem V2_arg4 (c : Dev nD) : V2 m ρ c main_arg4 = m ((c : Thread nD τ).loc main_arg4) :=
  (W2_of_ne m ρ c main_arg4 (by decide)).trans (W1_of_ne m ρ c main_arg4 (by decide))

/-! ## Region 3 is entered with the copy of A and S3 -/

theorem V3_v1_1 (c : Dev nD) : mat (V3 m ρ c main_v1_1) = mA m c := by
  have h : V3 m ρ c main_v1_1 = V2 m ρ c main_v1_1 :=
    (W3_arr m ρ c 0).trans (((dat2 (V2 m ρ) c).arrAt_in 0 rfl _).trans (A_eq2 (V2 m ρ) c 0))
  rw [h, V2_v1_1]
theorem V3_v2 (c : Dev nD) : mat (V3 m ρ c main_v2) = s3 (mA m c) (s2 (mA m c) (s1 (mZ m c) (mW4 m c)) (mW5 m c)) (mW6 m c) := by
  have h : V3 m ρ c main_v2 = arr (s3 (mat (V2 m ρ c main_v1_1)) (mat (V2 m ρ c main_v1_0)) (mat (V2 m ρ c main_arg4))) :=
    (W3_arr m ρ c 3).trans (final2 (V2 m ρ) c)
  rw [h, mat_arr, V2_v1_1, V2_v1_0, V2_arg4]

/-! ## After region 3: the decoded embedding, twice -/

theorem V4_v3_0 (c : Dev nD) : V4 m ρ c main_v3_0 = arr (zhat (mZ m c) (mA m c) (mW4 m c) (mW5 m c) (mW6 m c)) := by
  have h : V4 m ρ c main_v3_0 = arr (mm (mat (V3 m ρ c main_v1_1)) (mat (V3 m ρ c main_v2))) :=
    (W4_arr m ρ c 2).trans (final3_2 (V3 m ρ) c)
  rw [h, V3_v1_1, V3_v2]; rfl
theorem V4_v3_1 (c : Dev nD) : mat (V4 m ρ c main_v3_1) = zhat (mZ m c) (mA m c) (mW4 m c) (mW5 m c) (mW6 m c) := by
  have h : V4 m ρ c main_v3_1 = arr (mm (mat (V3 m ρ c main_v1_1)) (mat (V3 m ρ c main_v2))) :=
    (W4_arr m ρ c 3).trans (final3_3 (V3 m ρ) c)
  rw [h, mat_arr, V3_v1_1, V3_v2]; rfl

/-! ## The two results at the end -/

theorem V5_v3_0 (c : Dev nD) : V5 m ρ c main_v3_0 = arr (zhat (mZ m c) (mA m c) (mW4 m c) (mW5 m c) (mW6 m c)) :=
  (W5_of_ne m ρ c main_v3_0 (by decide)).trans (V4_v3_0 m ρ c)
theorem V5_v4 (c : Dev nD) : V5 m ρ c main_v4 = arr (reconQuot (zhat (mZ m c) (mA m c) (mW4 m c) (mW5 m c) (mW6 m c))) := by
  have h : V5 m ρ c main_v4 = arr (reconTanh (mat (V4 m ρ c main_v3_1))) :=
    (W5_out m ρ c).trans (final4 (V4 m ρ) c)
  rw [h, V4_v3_1, reconTanh_eq_reconQuot]

/-- THE KERNEL'S RUN, READ: every weakly fair execution ends, nothing faulting, with the first result at the decoded
    embedding Ẑ of the argument matrices, the second at the logistic function of Ẑ · Ẑᵀ, the arguments as launched. -/
theorem run : θ_run defs (onTc (τ := τ) (main (F := Ideal))) ⟨m, fun _ => 0, ρ⟩ (fun r => ∀ c : Dev nD,
      r.2.mem ((c.tc : Thread nD τ).loc main_v3_0) = arr (zhat (mZ m c) (mA m c) (mW4 m c) (mW5 m c) (mW6 m c))
      ∧ r.2.mem ((c.tc : Thread nD τ).loc main_v4) = arr (reconQuot (zhat (mZ m c) (mA m c) (mW4 m c) (mW5 m c) (mW6 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3_0 (by decide))).trans (V5_v3_0 m ρ c),
     (h c _ (mem_uc main_v4 (by decide))).trans (V5_v4 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.Igae.Ker

end
-- ==== Proof.RefSide.lean ====
/-
  The reference's two results are the specification's functions.

  Each stage of the reference is read at a row p and a column q. A matrix product's element is the sum over the
  contracted coordinate k of the left factor at (p, k) times the right factor at (k, q); tanh, negation, exp, the sum
  with the constant one and the quotient act element by element; the transpose reads its operand at (q, p). Going
  down the stages in order gives S1, A · S1, (A · S1) · W5, S2, A · S2, S3, Ẑ, then the Gram matrix of Ẑ's rows and the
  logistic function of it in the quotient form.
-/
import proofs.«108085_g73684458930218_cont_9to1c4b_137_7_alg».proof.Defs
import proofs.«108085_g73684458930218_cont_9to1c4b_137_7_alg».proof.Proof.Gen.ReferenceIdeal.Read
import proofs.«108085_g73684458930218_cont_9to1c4b_137_7_alg».proof.Proof.Spec

noncomputable section

open scoped BigOperators

namespace Cert.Igae.Ref

open Cert.ReferenceIdeal Cert.ReferenceIdeal.Gen Cert.ReferenceIdeal.Read
open Idealize.ShloMosaic Idealize.ShloMosaic.ValueIdx Cert.Igae

/-- Two indices of rank 2 are equal when their two coordinates are. -/
local macro "idx2" : tactic =>
  `(tactic| (funext a; match a with | ⟨0, _⟩ => rfl | ⟨1, _⟩ => rfl))

variable (x0 : (⟨S4096x128, .f32⟩ : BufTy).Contents (Elt Ideal))
  (x1 : (⟨S4096x4096, .f32⟩ : BufTy).Contents (Elt Ideal))
  (x2 : (⟨S128x256, .f32⟩ : BufTy).Contents (Elt Ideal))
  (x3 : (⟨S256x512, .f32⟩ : BufTy).Contents (Elt Ideal))
  (x4 : (⟨S512x512, .f32⟩ : BufTy).Contents (Elt Ideal))

/-- Z · W4 at (p, q). -/
theorem v0_at (p : Fin 4096) (q : Fin 256) :
    val_main_v0 (F := Ideal) x0 x2 (ix2 p q) = mm (mat x0) (mat x2) p q := by
  refine (val_main_v0_apply x0 x2 (ix2 p q)).trans ?_
  show _ = ∑ j : Fin 128, mat x0 p j * mat x2 j q
  refine Finset.sum_congr rfl fun k _ => ?_
  have hl : lidx_main_v0 (ix2 p q) k = ix2 p k := by idx2
  have hr : ridx_main_v0 (ix2 p q) k = ix2 k q := by idx2
  exact congrArg₂ (· * ·) (congrArg x0 hl) (congrArg x2 hr)

/-- S1 = tanh (Z · W4) at (p, q). -/
theorem v1_at (p : Fin 4096) (q : Fin 256) :
    val_main_v1 (F := Ideal) x0 x2 (ix2 p q) = s1 (mat x0) (mat x2) p q := by
  refine (val_main_v1_apply x0 x2 (ix2 p q)).trans ?_
  exact congrArg Ideal.tanh (v0_at x0 x2 p q)

/-- A · S1 at (p, q). -/
theorem v2_at (p : Fin 4096) (q : Fin 256) :
    val_main_v2 (F := Ideal) x0 x1 x2 (ix2 p q) = mm (mat x1) (s1 (mat x0) (mat x2)) p q := by
  refine (val_main_v2_apply x0 x1 x2 (ix2 p q)).trans ?_
  show _ = ∑ j : Fin 4096, mat x1 p j * s1 (mat x0) (mat x2) j q
  refine Finset.sum_congr rfl fun k _ => ?_
  have hl : lidx_main_v2 (ix2 p q) k = ix2 p k := by idx2
  have hr : ridx_main_v2 (ix2 p q) k = ix2 k q := by idx2
  exact congrArg₂ (· * ·) (congrArg x1 hl)
    ((congrArg (val_main_v1 (F := Ideal) x0 x2) hr).trans (v1_at x0 x2 k q))

/-- (A · S1) · W5 at (p, q). -/
theorem v3_at (p : Fin 4096) (q : Fin 512) :
    val_main_v3 (F := Ideal) x0 x1 x2 x3 (ix2 p q)
      = mm (mm (mat x1) (s1 (mat x0) (mat x2))) (mat x3) p q := by
  refine (val_main_v3_apply x0 x1 x2 x3 (ix2 p q)).trans ?_
  show _ = ∑ j : Fin 256, mm (mat x1) (s1 (mat x0) (mat x2)) p j * mat x3 j q
  refine Finset.sum_congr rfl fun k _ => ?_
  have hl : lidx_main_v3 (ix2 p q) k = ix2 p k := by idx2
  have hr : ridx_main_v3 (ix2 p q) k = ix2 k q := by idx2
  exact congrArg₂ (· * ·)
    ((congrArg (val_main_v2 (F := Ideal) x0 x1 x2) hl).trans (v2_at x0 x1 x2 p k))
    (congrArg x3 hr)

/-- S2 = tanh ((A · S1) · W5) at (p, q). -/
theorem v4_at (p : Fin 4096) (q : Fin 512) :
    val_main_v4 (F := Ideal) x0 x1 x2 x3 (ix2 p q)
      = s2 (mat x1) (s1 (mat x0) (mat x2)) (mat x3) p q := by
  refine (val_main_v4_apply x0 x1 x2 x3 (ix2 p q)).trans ?_
  exact congrArg Ideal.tanh (v3_at x0 x1 x2 x3 p q)

/-- A · S2 at (p, q). -/
theorem v5_at (p : Fin 4096) (q : Fin 512) :
    val_main_v5 (F := Ideal) x0 x1 x2 x3 (ix2 p q)
      = mm (mat x1) (s2 (mat x1) (s1 (mat x0) (mat x2)) (mat x3)) p q := by
  refine (val_main_v5_apply x0 x1 x2 x3 (ix2 p q)).trans ?_
  show _ = ∑ j : Fin 4096, mat x1 p j * s2 (mat x1) (s1 (mat x0) (mat x2)) (mat x3) j q
  refine Finset.sum_congr rfl fun k _ => ?_
  have hl : lidx_main_v5 (ix2 p q) k = ix2 p k := by idx2
  have hr : ridx_main_v5 (ix2 p q) k = ix2 k q := by idx2
  exact congrArg₂ (· * ·) (congrArg x1 hl)
    ((congrArg (val_main_v4 (F := Ideal) x0 x1 x2 x3) hr).trans (v4_at x0 x1 x2 x3 k q))

/-- S3 = (A · S2) · W6 at (p, q). -/
theorem v6_at (p : Fin 4096) (q : Fin 512) :
    val_main_v6 (F := Ideal) x0 x1 x2 x3 x4 (ix2 p q)
      = s3 (mat x1) (s2 (mat x1) (s1 (mat x0) (mat x2)) (mat x3)) (mat x4) p q := by
  refine (val_main_v6_apply x0 x1 x2 x3 x4 (ix2 p q)).trans ?_
  show _ = ∑ j : Fin 512, mm (mat x1) (s2 (mat x1) (s1 (mat x0) (mat x2)) (mat x3)) p j * mat x4 j q
  refine Finset.sum_congr rfl fun k _ => ?_
  have hl : lidx_main_v6 (ix2 p q) k = ix2 p k := by idx2
  have hr : ridx_main_v6 (ix2 p q) k = ix2 k q := by idx2
  exact congrArg₂ (· * ·)
    ((congrArg (val_main_v5 (F := Ideal) x0 x1 x2 x3) hl).trans (v5_at x0 x1 x2 x3 p k))
    (congrArg x4 hr)

/-- Ẑ = A · S3 at (p, q). -/
theorem v7_at (p : Fin 4096) (q : Fin 512) :
    val_main_v7 (F := Ideal) x0 x1 x2 x3 x4 (ix2 p q)
      = zhat (mat x0) (mat x1) (mat x2) (mat x3) (mat x4) p q := by
  refine (val_main_v7_apply x0 x1 x2 x3 x4 (ix2 p q)).trans ?_
  show _ = ∑ j : Fin 4096,
    mat x1 p j * s3 (mat x1) (s2 (mat x1) (s1 (mat x0) (mat x2)) (mat x3)) (mat x4) j q
  refine Finset.sum_congr rfl fun k _ => ?_
  have hl : lidx_main_v7 (ix2 p q) k = ix2 p k := by idx2
  have hr : ridx_main_v7 (ix2 p q) k = ix2 k q := by idx2
  exact congrArg₂ (· * ·) (congrArg x1 hl)
    ((congrArg (val_main_v6 (F := Ideal) x0 x1 x2 x3 x4) hr).trans (v6_at x0 x1 x2 x3 x4 k q))

/-- The transpose of Ẑ at (k, q) is Ẑ at (q, k). -/
theorem v8_at (k : Fin 512) (q : Fin 4096) :
    val_main_v8 (F := Ideal) x0 x1 x2 x3 x4 (ix2 k q)
      = zhat (mat x0) (mat x1) (mat x2) (mat x3) (mat x4) q k := by
  refine (val_main_v8_apply x0 x1 x2 x3 x4 (ix2 k q)).trans ?_
  have hi : idx_main_v8 (ix2 k q) = ix2 q k := by idx2
  exact (congrArg (val_main_v7 (F := Ideal) x0 x1 x2 x3 x4) hi).trans (v7_at x0 x1 x2 x3 x4 q k)

/-- Ẑ · Ẑᵀ at (p, q) is the Gram matrix of Ẑ's rows. -/
theorem v9_at (p q : Fin 4096) :
    val_main_v9 (F := Ideal) x0 x1 x2 x3 x4 (ix2 p q)
      = gram (zhat (mat x0) (mat x1) (mat x2) (mat x3) (mat x4)) p q := by
  refine (val_main_v9_apply x0 x1 x2 x3 x4 (ix2 p q)).trans ?_
  show _ = ∑ k : Fin 512, zhat (mat x0) (mat x1) (mat x2) (mat x3) (mat x4) p k
    * zhat (mat x0) (mat x1) (mat x2) (mat x3) (mat x4) q k
  refine Finset.sum_congr rfl fun k _ => ?_
  have hl : lidx_main_v9 (ix2 p q) k = ix2 p k := by idx2
  have hr : ridx_main_v9 (ix2 p q) k = ix2 k q := by idx2
  exact congrArg₂ (· * ·)
    ((congrArg (val_main_v7 (F := Ideal) x0 x1 x2 x3 x4) hl).trans (v7_at x0 x1 x2 x3 x4 p k))
    ((congrArg (val_main_v8 (F := Ideal) x0 x1 x2 x3 x4) hr).trans (v8_at x0 x1 x2 x3 x4 k q))

/-- The broadcast constant is one at every index. -/
theorem v12_at (i : S4096x4096.Idx) : val_main_v12 (F := Ideal) i = one :=
  (val_main_v12_apply (F := Ideal) i).trans rfl

theorem v14_at (i : S4096x4096.Idx) : val_main_v14 (F := Ideal) i = one :=
  (val_main_v14_apply (F := Ideal) i).trans rfl

/-- The last stage at (p, q): one over one plus exp of minus the Gram matrix. -/
theorem v15_at (p q : Fin 4096) :
    val_main_v15 (F := Ideal) x0 x1 x2 x3 x4 (ix2 p q)
      = reconQuot (zhat (mat x0) (mat x1) (mat x2) (mat x3) (mat x4)) p q := by
  show Ideal.div (val_main_v14 (F := Ideal) (ix2 p q))
      (val_main_v12 (F := Ideal) (ix2 p q)
        + Ideal.exp (-(val_main_v9 (F := Ideal) x0 x1 x2 x3 x4 (ix2 p q))))
    = Ideal.div one (one + Ideal.exp (-(gram (zhat (mat x0) (mat x1) (mat x2) (mat x3) (mat x4)) p q)))
  rw [v14_at, v12_at, v9_at]

/-- The reference's first result is Ẑ. -/
theorem ref_zhat (x0 : (⟨S4096x128, .f32⟩ : BufTy).Contents (Elt Ideal))
    (x1 : (⟨S4096x4096, .f32⟩ : BufTy).Contents (Elt Ideal))
    (x2 : (⟨S128x256, .f32⟩ : BufTy).Contents (Elt Ideal))
    (x3 : (⟨S256x512, .f32⟩ : BufTy).Contents (Elt Ideal))
    (x4 : (⟨S512x512, .f32⟩ : BufTy).Contents (Elt Ideal)) :
    Cert.ReferenceIdeal.Read.val_main_v7 (F := Ideal) x0 x1 x2 x3 x4
      = arr (zhat (mat x0) (mat x1) (mat x2) (mat x3) (mat x4)) := by
  funext i
  obtain ⟨p, q, rfl⟩ : ∃ p q, i = ix2 p q := ⟨i 0, i 1, eq_ix2 i⟩
  exact (v7_at x0 x1 x2 x3 x4 p q).trans (arr_ix2 _ p q).symm

/-- The reference's second result is the logistic function, in the quotient form, of the Gram matrix of Ẑ's rows. -/
theorem ref_recon (x0 : (⟨S4096x128, .f32⟩ : BufTy).Contents (Elt Ideal))
    (x1 : (⟨S4096x4096, .f32⟩ : BufTy).Contents (Elt Ideal))
    (x2 : (⟨S128x256, .f32⟩ : BufTy).Contents (Elt Ideal))
    (x3 : (⟨S256x512, .f32⟩ : BufTy).Contents (Elt Ideal))
    (x4 : (⟨S512x512, .f32⟩ : BufTy).Contents (Elt Ideal)) :
    Cert.ReferenceIdeal.Read.val_main_v15 (F := Ideal) x0 x1 x2 x3 x4
      = arr (reconQuot (zhat (mat x0) (mat x1) (mat x2) (mat x3) (mat x4))) := by
  funext i
  obtain ⟨p, q, rfl⟩ : ∃ p q, i = ix2 p q := ⟨i 0, i 1, eq_ix2 i⟩
  exact (v15_at x0 x1 x2 x3 x4 p q).trans (arr_ix2 _ p q).symm

end Cert.Igae.Ref

end
-- ==== Proof.lean ====
/-
  The certificate of the graph decoder kernel against its plain reference.

  Both programs compute, from an embedding Z, a dense adjacency matrix A and three weight matrices,
      S1 = tanh (Z · W4),  S2 = tanh ((A · S1) · W5),  S3 = (A · S2) · W6,  Ẑ = A · S3,  R = σ (Ẑ · Ẑᵀ),
  and return Ẑ and R. The kernel does it in five regions, each a grid of row panels (the last a grid of square tiles),
  rounding its matrix operands to a shorter float format on the way into each product; the reference does it in one
  pass of whole-array operations. On the extended reals a change of float format is the identity and a matrix product
  is its sum whatever its tiling, so the two programs compute the same Ẑ entry by entry with the same grouping of the
  products. The one law needed is the logistic function's: the kernel evaluates σ (x) as (1/2) · (1 + tanh (x / 2)),
  the reference as 1 / (1 + e^(-x)); they agree at every extended real, the two infinities included, so no
  finiteness of the inputs is used.

  The frames: the kernel's program (as printed and idealized) is run region by region over the library's launch of a
  list of segments, every unscoped buffer named at every boundary; the reference's frame is its run with the results
  dropped. The idealization rewrote nothing, so there is nothing to preserve.
-/
import proofs.«108085_g73684458930218_cont_9to1c4b_137_7_alg».proof.Defs
import proofs.«108085_g73684458930218_cont_9to1c4b_137_7_alg».proof.Proof.Gen.Kernel
import proofs.«108085_g73684458930218_cont_9to1c4b_137_7_alg».proof.Proof.Gen.KernelIdeal
import proofs.«108085_g73684458930218_cont_9to1c4b_137_7_alg».proof.Proof.Gen.ReferenceIdeal
import proofs.«108085_g73684458930218_cont_9to1c4b_137_7_alg».proof.Proof.Gen.Pre_finite_inputs
import proofs.«108085_g73684458930218_cont_9to1c4b_137_7_alg».proof.Proof.Gen.ReferenceIdeal.Run
import proofs.«108085_g73684458930218_cont_9to1c4b_137_7_alg».proof.Proof.Gen.ReferenceIdeal.Read
import proofs.«108085_g73684458930218_cont_9to1c4b_137_7_alg».proof.Proof.KFrameRun
import proofs.«108085_g73684458930218_cont_9to1c4b_137_7_alg».proof.Proof.KernelValue
import proofs.«108085_g73684458930218_cont_9to1c4b_137_7_alg».proof.Proof.RefSide
import Idealize.ShloMosaic.Adequacy
import Idealize.ShloMosaic.Init

noncomputable section

namespace Cert.Proof

open Idealize.ShloMosaic Idealize.ShloMosaic.TcCoe Idealize.SL.Sem Cert.Igae

/-- The kernel's program as printed runs and leaves its arguments as launched. -/
theorem frame_k : Cert.frame_Kernel := fun m ρ _ => Cert.Kernel.Frm.frame m ρ

/-- So does its idealization. -/
theorem frame_ki : Cert.frame_KernelIdeal := fun m ρ _ => Cert.KernelIdeal.Frm.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the five arguments both programs end with the decoded embedding Ẑ of the argument
    matrices and the logistic function of Ẑ · Ẑᵀ, entry by entry. -/
theorem algebraic : Cert.algebraic_KernelIdeal_ReferenceIdeal := by
  intro m ρ m' ρ' _ hagree
  refine ⟨_, _, Cert.Igae.Ker.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v7_eq, Cert.Igae.Ref.ref_zhat,
      (hagree c).1, (hagree c).2.1, (hagree c).2.2.1, (hagree c).2.2.2.1, (hagree c).2.2.2.2]
  · rw [Cert.ReferenceIdeal.Read.val_main_v15_eq, Cert.Igae.Ref.ref_recon,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
